-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1x1024x1024 : Shape := ⟨4, ![8, 1, 1024, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x1024 .f32) (main_arg6 : FVec F S1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x1024x1024 .f32) (main_arg1 : IVec S8x1x1024x1024 32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S8x1024x1024 : Shape := ⟨3, ![8, 1024, 1024]⟩
abbrev S8x1x1024x1024 : Shape := ⟨4, ![8, 1, 1024, 1024]⟩
abbrev S1024x1024 : Shape := ⟨2, ![1024, 1024]⟩
abbrev S1024 : Shape := ⟨1, ![1024]⟩
abbrev S16x64x1024 : Shape := ⟨3, ![16, 64, 1024]⟩
abbrev S16x1024x64 : Shape := ⟨3, ![16, 1024, 64]⟩
abbrev S1024x16x64 : Shape := ⟨3, ![1024, 16, 64]⟩
abbrev S8x16x1024x1024 : Shape := ⟨4, ![8, 16, 1024, 1024]⟩
abbrev S1x1024x1024 : Shape := ⟨3, ![1, 1024, 1024]⟩
abbrev S1x1x256x1024 : Shape := ⟨4, ![1, 1, 256, 1024]⟩
abbrev S1x256x1024 : Shape := ⟨3, ![1, 256, 1024]⟩
abbrev S256x1024 : Shape := ⟨2, ![256, 1024]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S256x64 : Shape := ⟨2, ![256, 64]⟩
abbrev S256 : Shape := ⟨1, ![256]⟩
abbrev S256x1 : Shape := ⟨2, ![256, 1]⟩
abbrev S1x1024 : Shape := ⟨2, ![1, 1024]⟩

abbrev nBuf : Space → Nat
  | .hbm => 22
  | .vmem => 15
  | .smem => 0
  | _ => 0

abbrev bufTy : (tb : Table) → Fin (tcTables nBuf tb) → BufTy
  | .hbm, ⟨0, _⟩ => ⟨S8x1024x1024, .f32⟩
  | .hbm, ⟨1, _⟩ => ⟨S8x1x1024x1024, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16x64x1024, .f32⟩
  | .hbm, ⟨9, _⟩ => ⟨S16x1024x64, .f32⟩
  | .hbm, ⟨10, _⟩ => ⟨S16x1024x64, .bf16⟩
  | .hbm, ⟨11, _⟩ => ⟨S16x64x1024, .f32⟩
  | .hbm, ⟨12, _⟩ => ⟨S16x1024x64, .f32⟩
  | .hbm, ⟨13, _⟩ => ⟨S16x1024x64, .bf16⟩
  | .hbm, ⟨14, _⟩ => ⟨S16x64x1024, .f32⟩
  | .hbm, ⟨15, _⟩ => ⟨S16x1024x64, .f32⟩
  | .hbm, ⟨16, _⟩ => ⟨S16x1024x64, .bf16⟩
  | .hbm, ⟨17, _⟩ => ⟨S1024x16x64, .f32⟩
  | .hbm, ⟨18, _⟩ => ⟨S16x64x1024, .f32⟩
  | .hbm, ⟨19, _⟩ => ⟨S16x64x1024, .bf16⟩
  | .hbm, ⟨20, _⟩ => ⟨S8x1024x1024, .f32⟩
  | .hbm, ⟨21, _⟩ => ⟨S8x16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x256x1024, .i32⟩
  | .local _ .vmem, ⟨3, _⟩ => ⟨S1x1x256x1024, .i32⟩
  | .local _ .vmem, ⟨4, _⟩ => ⟨S16x1024x64, .bf16⟩
  | .local _ .vmem, ⟨5, _⟩ => ⟨S16x1024x64, .bf16⟩
  | .local _ .vmem, ⟨6, _⟩ => ⟨S16x1024x64, .bf16⟩
  | .local _ .vmem, ⟨7, _⟩ => ⟨S16x64x1024, .bf16⟩
  | .local _ .vmem, ⟨8, _⟩ => ⟨S1024, .f32⟩
  | .local _ .vmem, ⟨9, _⟩ => ⟨S1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1x256x1024, .f32⟩
  | .local _ .vmem, ⟨13, _⟩ => ⟨S1x1x256x1024, .f32⟩
  | .local _ .vmem, ⟨14, _⟩ => ⟨S256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_off2 (i : grid0.Coords) : Fin 3 → Nat :=
  let arg2 : BitVec 32 := BitVec.ofNat 32 (i 2).val
  let v11 : Index := Scalar.indexCast arg2
  let c0_5 : Index := 0#32
  let c0_6 : Index := 0#32
  ![v11.toNat, 0, 0]
def k0_off3 (i : grid0.Coords) : Fin 3 → Nat :=
  let arg2 : BitVec 32 := BitVec.ofNat 32 (i 2).val
  let v20 : Index := Scalar.indexCast arg2
  let c0_11 : Index := 0#32
  let c0_12 : Index := 0#32
  ![v20.toNat, 0, 0]
def k0_cond2 (i : grid0.Coords) : BitVec 1 :=
  let arg2 : BitVec 32 := BitVec.ofNat 32 (i 2).val
  let c15_i32 : BitVec 32 := 15#32
  let v61 : BitVec 1 := Scalar.cmpi .eq arg2 c15_i32
  let v62 : BitVec 32 := Scalar.extui v61
  let c0_i32_35 : BitVec 32 := 0#32
  let v63 : BitVec 1 := Scalar.cmpi .ne v62 c0_i32_35
  v63

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S16x1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S16x1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16x64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

class Facts₀ : Prop where
  shapeCasts_S1024x1024_S16x64x1024 : S1024x1024.ShapeCasts S16x64x1024
  transposes_S16x64x1024_S16x1024x64_0_2_1 : S16x64x1024.Transposes [0, 2, 1] S16x1024x64
  bitsLt_bf16_f32 : FTy.bits .bf16 < FTy.bits .f32
  shapeCasts_S1024x1024_S1024x16x64 : S1024x1024.ShapeCasts S1024x16x64
  transposes_S1024x16x64_S16x64x1024_1_2_0 : S1024x16x64.Transposes [1, 2, 0] S16x64x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  h_S1x1024x64 : 0 < S1x1024x64.numel
  shapeCasts_S1x1024x64_S1024x64 : S1x1024x64.ShapeCasts S1024x64
  h_S1x64x1024 : 0 < S1x64x1024.numel
  shapeCasts_S1x64x1024_S64x1024 : S1x64x1024.ShapeCasts S64x1024
  transposes_S1024x64_p1_0_S64x1024 : S1024x64.Transposes [1, 0] S64x1024
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x1x256x1024 : S256x1024.ShapeCasts S1x1x256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S256x1024_S1024x64_S256x64_1_0_0_1_n_n_wf : DotDims.WF S256x1024 S1024x64 S256x64 [1] [0] [0] [1] [] []
  dot_S1024x1024_S1024x64_S1024x64_1_0_0_1_n_n_wf : DotDims.WF S1024x1024 S1024x64 S1024x64 [1] [0] [0] [1] [] []
  dot_S256x64_S64x1024_S256x1024_1_0_0_1_n_n_wf : DotDims.WF S256x64 S64x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x1024x1024.size a
  k0_off2_inb : ∀ i : grid0.Coords, ∀ a, (k0_off2 i) a + S1x1024x64.size a ≤ S16x1024x64.size a
  k0_off3_inb : ∀ i : grid0.Coords, ∀ a, (k0_off3 i) a + S1x64x1024.size a ≤ S16x64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x1024.size a ≤ S8x1x1024x1024.size a
  hwx0_1 : ∀ i : grid0.Coords, EltTy.bits .i32 = 32 ∨ (Rect.block (s := S8x1x1024x1024) S1x1x256x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024x64.size a ≤ S16x1024x64.size a
  hwx0_2 : ∀ i : grid0.Coords, EltTy.bits .bf16 = 32 ∨ (Rect.block (s := S16x1024x64) S16x1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024x64.size a ≤ S16x1024x64.size a
  hwx0_3 : ∀ i : grid0.Coords, EltTy.bits .bf16 = 32 ∨ (Rect.block (s := S16x1024x64) S16x1024x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024x64.size a ≤ S16x1024x64.size a
  hwx0_4 : ∀ i : grid0.Coords, EltTy.bits .bf16 = 32 ∨ (Rect.block (s := S16x1024x64) S16x1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64x1024.size a ≤ S16x64x1024.size a
  hwx0_5 : ∀ i : grid0.Coords, EltTy.bits .bf16 = 32 ∨ (Rect.block (s := S16x64x1024) S16x64x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x1024x1024.size a
  hwx0_8 : ∀ i : grid0.Coords, EltTy.bits .f32 = 32 ∨ (Rect.block (s := S8x1024x1024) S1x256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256x1024.size a ≤ S8x16x1024x1024.size a
  hwx0_9 : ∀ i : grid0.Coords, EltTy.bits .f32 = 32 ∨ (Rect.block (s := S8x16x1024x1024) S1x1x256x1024.size (cc0_transform_9 i) (hinb0_9 i)).WholeWords (EltTy.packing .f32)

variable [Facts₀]

def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S16x64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_0) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_1) S1x1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun _ => false | ⟨_ + 10, h⟩ => absurd h (Nat.not_lt.2 (Nat.le_add_left _ _))

class Facts : Prop extends Facts₀ where

variable [Facts]
-- ==== ReferenceIdeal.lean ====
abbrev S8x1024x1024 : Shape := ⟨3, ![8, 1024, 1024]⟩
abbrev S8x1x1024x1024 : Shape := ⟨4, ![8, 1, 1024, 1024]⟩
abbrev S1024x1024 : Shape := ⟨2, ![1024, 1024]⟩
abbrev S1024 : Shape := ⟨1, ![1024]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1x1024x1024, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x1024x1024, .f32⟩
  | .hbm, ⟨9, _⟩ => ⟨S8x1024x16x64, .f32⟩
  | .hbm, ⟨10, _⟩ => ⟨S8x16x1024x64, .f32⟩
  | .hbm, ⟨11, _⟩ => ⟨S8x1024x1024, .f32⟩
  | .hbm, ⟨12, _⟩ => ⟨S8x1024x16x64, .f32⟩
  | .hbm, ⟨13, _⟩ => ⟨S8x16x1024x64, .f32⟩
  | .hbm, ⟨14, _⟩ => ⟨S8x1024x1024, .f32⟩
  | .hbm, ⟨15, _⟩ => ⟨S8x1024x16x64, .f32⟩
  | .hbm, ⟨16, _⟩ => ⟨S8x16x1024x64, .f32⟩
  | .hbm, ⟨17, _⟩ => ⟨S8x16x1024x1024, .f32⟩
  | .hbm, ⟨18, _⟩ => ⟨S_, .f32⟩
  | .hbm, ⟨19, _⟩ => ⟨S8x16x1024x1024, .f32⟩
  | .hbm, ⟨20, _⟩ => ⟨S8x16x1024x1024, .f32⟩
  | .hbm, ⟨21, _⟩ => ⟨S_, .i32⟩
  | .hbm, ⟨22, _⟩ => ⟨S8x1x1024x1024, .i32⟩
  | .hbm, ⟨23, _⟩ => ⟨S8x1x1024x1024, .i1⟩
  | .hbm, ⟨24, _⟩ => ⟨S_, .f32⟩
  | .hbm, ⟨25, _⟩ => ⟨S8x16x1024x1024, .i1⟩
  | .hbm, ⟨26, _⟩ => ⟨S8x16x1024x1024, .f32⟩
  | .hbm, ⟨27, _⟩ => ⟨S8x16x1024x1024, .f32⟩
  | .hbm, ⟨28, _⟩ => ⟨S_, .f32⟩
  | .hbm, ⟨29, _⟩ => ⟨S8x16x1024, .f32⟩
  | .hbm, ⟨30, _⟩ => ⟨S_, .f32⟩
  | .hbm, ⟨31, _⟩ => ⟨S8x16x1024, .f32⟩
  | .hbm, ⟨32, _⟩ => ⟨S8x16x1024, .f32⟩
  | .hbm, ⟨33, _⟩ => ⟨S8x16x1024x1, .f32⟩
  | .hbm, ⟨34, _⟩ => ⟨S8x16x1024x1024, .f32⟩
  | .hbm, ⟨35, _⟩ => ⟨S8x16x1024x1024, .f32⟩
  | .hbm, ⟨36, _⟩ => ⟨S8x16x1024x1024, .f32⟩
  | .hbm, ⟨37, _⟩ => ⟨S_, .f32⟩
  | .hbm, ⟨38, _⟩ => ⟨S8x16x1024, .f32⟩
  | .hbm, ⟨39, _⟩ => ⟨S8x16x1024x1, .f32⟩
  | .hbm, ⟨40, _⟩ => ⟨S8x16x1024x1024, .f32⟩
  | .hbm, ⟨41, _⟩ => ⟨S8x16x1024x1024, .f32⟩
  | .hbm, ⟨42, _⟩ => ⟨S8x16x1024x64, .f32⟩
  | .hbm, ⟨43, _⟩ => ⟨S8x1024x16x64, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S_, .f32⟩
  | .hbm, ⟨48, _⟩ => ⟨S8x1024, .f32⟩
  | .hbm, ⟨49, _⟩ => ⟨S8x1024x1, .f32⟩
  | .hbm, ⟨50, _⟩ => ⟨S_, .f32⟩
  | .hbm, ⟨51, _⟩ => ⟨S8x1024x1, .f32⟩
  | .hbm, ⟨52, _⟩ => ⟨S8x1024x1, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S_, .f32⟩
  | .hbm, ⟨57, _⟩ => ⟨S8x1024, .f32⟩
  | .hbm, ⟨58, _⟩ => ⟨S8x1024x1, .f32⟩
  | .hbm, ⟨59, _⟩ => ⟨S_, .f32⟩
  | .hbm, ⟨60, _⟩ => ⟨S8x1024x1, .f32⟩
  | .hbm, ⟨61, _⟩ => ⟨S8x1024x1, .f32⟩
  | .hbm, ⟨62, _⟩ => ⟨S8x1024x1024, .f32⟩
  | .hbm, ⟨63, _⟩ => ⟨S8x1024x1024, .f32⟩
  | .hbm, ⟨64, _⟩ => ⟨S_, .f32⟩
  | .hbm, ⟨65, _⟩ => ⟨S8x1024x1, .f32⟩
  | .hbm, ⟨66, _⟩ => ⟨S8x1024x1, .f32⟩
  | .hbm, ⟨67, _⟩ => ⟨S8x1024x1, .f32⟩
  | .hbm, ⟨68, _⟩ => ⟨S8x1024x1024, .f32⟩
  | .hbm, ⟨69, _⟩ => ⟨S8x1024x1024, .f32⟩
  | .hbm, ⟨70, _⟩ => ⟨S1x1x1024, .f32⟩
  | .hbm, ⟨71, _⟩ => ⟨S8x1024x1024, .f32⟩
  | .hbm, ⟨72, _⟩ => ⟨S8x1024x1024, .f32⟩
  | .hbm, ⟨73, _⟩ => ⟨S1x1x1024, .f32⟩
  | .hbm, ⟨74, _⟩ => ⟨S8x1024x1024, .f32⟩
  | .hbm, ⟨75, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  shapeCasts_S8x1024x1024_S8x1024x16x64 : S8x1024x1024.ShapeCasts S8x1024x16x64
  transposes_S8x1024x16x64_S8x16x1024x64_0_2_1_3 : S8x1024x16x64.Transposes [0, 2, 1, 3] S8x16x1024x64
  bcast_S_S8x16x1024x1024 : S_.BroadcastsInDim S8x16x1024x1024 (![] : Fin 0 → Fin S8x16x1024x1024.rank)
  bcast_S_S8x1x1024x1024 : S_.BroadcastsInDim S8x1x1024x1024 (![] : Fin 0 → Fin S8x1x1024x1024.rank)
  bcast_S8x1x1024x1024_S8x16x1024x1024_0_1_2_3 : S8x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  reducesTo_S8x1024x1024_S8x1024_d2 : S8x1024x1024.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S1024x1024_S8x1024x1024_2_1_01_0_n_n_wf : DotDims.WF S8x1024x1024 S1024x1024 S8x1024x1024 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.Spec.lean ====
/-
  What both programs compute, entry by entry, as extended reals: multi-head self-attention over a sequence of 1024
  positions with 16 heads of 64 features, followed by a residual connection and a layer normalisation.

  For batch `b`, head `h`, query position `q` and key position `k`:
    * the projections are `proj W b s o = ∑ᵢ x(b,s,i) · W(o,i)`, and head `h` owns the output features `64h … 64h+63`;
    * the score is `∑_d Q(b,q,64h+d) · K(b,k,64h+d)`, divided by 8, replaced by the large negative fill where the mask
      entry `(b,0,q,k)` is zero;
    * the attention weights are the softmax of a row of scores: the exponential of the score minus the row's maximum
      (folded from −∞), divided by the sum of those exponentials (started from zero).
  For batch `b`, position `s` and output feature `o`:
    * the context `∑_k attn(b,h,s,k) · V(b,k,64h+d)` of all heads, concatenated (feature `j` belongs to head `j / 64`, at
      `j % 64`), is projected by `W_O`, the input is added back, and the row is normalised: centred by its mean, divided by
      the square root of its mean square plus a small constant, scaled and shifted feature by feature.
-/
import Idealize.ShloMosaic.PureOps.Ideal
import Idealize.ShloMosaic.Lib.ValueIdx

noncomputable section

namespace Cert.Attn.Spec

open Idealize.ShloMosaic Idealize.ShloMosaic.ValueIdx

/-- The large negative fill of masked scores. -/
abbrev fill : EReal := Ideal.ofBits .f32 0xCE6E6B28#32
/-- −∞, from which a row's maximum is folded. -/
abbrev negInf : EReal := Ideal.ofBits .f32 0xFF800000#32
/-- Zero, from which sums start. -/
abbrev zero : EReal := Ideal.ofBits .f32 0x00000000#32
/-- The divisor of the scores. -/
abbrev eight : EReal := Ideal.ofBits .f32 0x41000000#32
/-- The length of a row. -/
abbrev n1024 : EReal := Ideal.ofBits .f32 0x44800000#32
/-- The small constant under the square root. -/
abbrev eps : EReal := Ideal.ofBits .f32 0x358637BD#32

/-- Feature `d` of head `h`, among the 1024 features. -/
def hd (h : Fin 16) (d : Fin 64) : Fin 1024 := ⟨h.val * 64 + d.val, by have := h.isLt; have := d.isLt; omega⟩
/-- The head that owns feature `j`. -/
def headOf (j : Fin 1024) : Fin 16 := ⟨j.val / 64, by have := j.isLt; omega⟩
/-- The place of feature `j` inside its head. -/
def featOf (j : Fin 1024) : Fin 64 := ⟨j.val % 64, Nat.mod_lt _ (by decide)⟩

section
variable (x0 : (⟨3, ![8, 1024, 1024]⟩ : Shape).Idx → EReal) (x1 : (⟨4, ![8, 1, 1024, 1024]⟩ : Shape).Idx → BitVec 32)
  (x2 x3 x4 x5 : (⟨2, ![1024, 1024]⟩ : Shape).Idx → EReal) (x6 x7 : (⟨1, ![1024]⟩ : Shape).Idx → EReal)

/-- A linear projection of the input: `∑ᵢ x(b,s,i) · W(o,i)`. -/
def proj (W : (⟨2, ![1024, 1024]⟩ : Shape).Idx → EReal) (b : Fin 8) (s : Fin 1024) (o : Fin 1024) : EReal :=
  ∑ i : Fin 1024, x0 (ix3 b s i) * W (ix2 o i)

/-- The raw score of query `q` against key `k` in head `h`. -/
def score (b : Fin 8) (h : Fin 16) (q k : Fin 1024) : EReal :=
  ∑ d : Fin 64, proj x0 x2 b q (hd h d) * proj x0 x3 b k (hd h d)

/-- The score divided by 8, or the fill where the mask entry is zero. -/
def logit (b : Fin 8) (h : Fin 16) (q k : Fin 1024) : EReal :=
  Scalar.select (IntOp.cmpi .eq (x1 (ix4 b (0 : Fin 1) q k)) 0#32) fill (Ideal.div (score x0 x2 x3 b h q k) eight)

/-- The maximum of a row of scores, folded from −∞. -/
def rowMax (b : Fin 8) (h : Fin 16) (q : Fin 1024) : EReal :=
  (Finset.univ : Finset (Fin 1024)).fold max negInf (fun k => logit x0 x1 x2 x3 b h q k)

/-- The exponential of a score minus its row's maximum. -/
def expo (b : Fin 8) (h : Fin 16) (q k : Fin 1024) : EReal :=
  Ideal.exp (logit x0 x1 x2 x3 b h q k - rowMax x0 x1 x2 x3 b h q)

/-- The sum of a row's exponentials. -/
def denom (b : Fin 8) (h : Fin 16) (q : Fin 1024) : EReal :=
  zero + ∑ k : Fin 1024, expo x0 x1 x2 x3 b h q k

/-- The attention weight. -/
def attn (b : Fin 8) (h : Fin 16) (q k : Fin 1024) : EReal :=
  Ideal.div (expo x0 x1 x2 x3 b h q k) (denom x0 x1 x2 x3 b h q)

/-- The context of head `h` at position `s`, feature `d`. -/
def ctx (b : Fin 8) (h : Fin 16) (s : Fin 1024) (d : Fin 64) : EReal :=
  ∑ k : Fin 1024, attn x0 x1 x2 x3 b h s k * proj x0 x4 b k (hd h d)

/-- The output projection of the concatenated contexts. -/
def oproj (b : Fin 8) (s o : Fin 1024) : EReal :=
  ∑ j : Fin 1024, ctx x0 x1 x2 x3 x4 b (headOf j) s (featOf j) * x5 (ix2 o j)

/-- With the input added back. -/
def resid (b : Fin 8) (s o : Fin 1024) : EReal :=
  oproj x0 x1 x2 x3 x4 x5 b s o + x0 (ix3 b s o)

/-- The mean of a row. -/
def mean (b : Fin 8) (s : Fin 1024) : EReal :=
  Ideal.div (zero + ∑ o : Fin 1024, resid x0 x1 x2 x3 x4 x5 b s o) n1024

/-- A centred entry. -/
def cent (b : Fin 8) (s o : Fin 1024) : EReal :=
  resid x0 x1 x2 x3 x4 x5 b s o - mean x0 x1 x2 x3 x4 x5 b s

/-- The mean square of a centred row. -/
def var (b : Fin 8) (s : Fin 1024) : EReal :=
  Ideal.div (zero + ∑ o : Fin 1024, cent x0 x1 x2 x3 x4 x5 b s o * cent x0 x1 x2 x3 x4 x5 b s o) n1024

/-- The normalised, scaled and shifted entry. -/
def normed (b : Fin 8) (s o : Fin 1024) : EReal :=
  Ideal.div (cent x0 x1 x2 x3 x4 x5 b s o) (Ideal.sqrt (var x0 x1 x2 x3 x4 x5 b s + eps)) * x6 (ix1 o) + x7 (ix1 o)

/-- The attention weights as one array of shape [8, 16, 1024, 1024]. -/
def attnArr : (⟨4, ![8, 16, 1024, 1024]⟩ : Shape).Idx → EReal :=
  fun i => attn x0 x1 x2 x3 (i 0) (i 1) (i 2) (i 3)

/-- The layer output as one array of shape [8, 1024, 1024]. -/
def outArr : (⟨3, ![8, 1024, 1024]⟩ : Shape).Idx → EReal :=
  fun i => normed x0 x1 x2 x3 x4 x5 x6 x7 (i 0) (i 1) (i 2)

end

end Cert.Attn.Spec

end
-- ==== Proof.Slices.lean ====
/-
  The three pieces the kernel body cuts out of the blocks it is handed: the query tile (256 consecutive rows of the
  batch's input block, starting at 256 times the tile's number) and the current head's slice of a stack of weights.
  Also the batch, tile and head of a grid point (the grid is 8 batches by 4 tiles by 16 heads, heads fastest).
-/
import proofs.«161823_j12627203850645_2_alg».proof.Proof.Gen.KernelIdeal.Launch
import proofs.«161823_j12627203850645_2_alg».proof.Proof.Spec
import Idealize.ShloMosaic.Lib.Pipeline.FrameBody

noncomputable section

namespace Cert.Attn.Pieces

open Idealize.ShloMosaic Cert.KernelIdeal Cert.KernelIdeal.Gen

variable {F : FTy → Type} [FloatOps F]

/-- The query tile: 256 consecutive rows of the batch's input block. -/
def tile (i : grid0.Coords) (x0 : Vec F S1x1024x1024 .f32) : Vec F S1x256x1024 .f32 :=
  View.ld x0 (Rect.unit (s := S1x1024x1024) (k0_off1 i) S1x256x1024.size (Cert.KernelIdeal.Gen.k0_off1_inb i))
/-- The head's slice of a stack of projection weights. -/
def wsl (i : grid0.Coords) (w : Vec F S16x1024x64 .bf16) : Vec F S1x1024x64 .bf16 :=
  View.ld w (Rect.unit (s := S16x1024x64) (k0_off2 i) S1x1024x64.size (Cert.KernelIdeal.Gen.k0_off2_inb i))
/-- The head's slice of the stack of output weights. -/
def wosl (i : grid0.Coords) (w : Vec F S16x64x1024 .bf16) : Vec F S1x64x1024 .bf16 :=
  View.ld w (Rect.unit (s := S16x64x1024) (k0_off3 i) S1x64x1024.size (Cert.KernelIdeal.Gen.k0_off3_inb i))

/-- The batch of grid point `n`. -/
def bOf (n : Fin cfg0.N) : Fin 8 := ⟨n.val / 64, by have := lt_of_lt_of_eq n.isLt (show cfg0.N = 512 from N_0); omega⟩
/-- The query tile of grid point `n`. -/
def qOf (n : Fin cfg0.N) : Fin 4 := ⟨n.val / 16 % 4, Nat.mod_lt _ (by decide)⟩
/-- The head of grid point `n`. -/
def hOf (n : Fin cfg0.N) : Fin 16 := ⟨n.val % 16, Nat.mod_lt _ (by decide)⟩
/-- Row `r` of tile `q`, among the 1024 positions. -/
def rowOf (q : Fin 4) (r : Fin 256) : Fin 1024 := ⟨256 * q.val + r.val, by have := q.isLt; have := r.isLt; omega⟩

end Cert.Attn.Pieces

end
-- ==== Proof.Blocks.lean ====
/-
  The blocks the kernel body is handed, read at an index.

  At grid point `t` (batch `t / 64`, query tile `(t / 16) % 4`, head `t % 16`) the input block is the batch's
  1024 × 1024 slab of the input, the mask block is the tile's 256 rows of the batch's mask, and the scale and shift
  are the whole vectors. A block's coordinate on an axis is the block index times the block size plus the coordinate
  inside the block; the query tile starts at row 256 times the tile's number.

  The four weight blocks are whole arrays, the weights regrouped by head before the grid starts: the head's slice of a
  projection weight holds `W (64 h + d, i)` at (i, d), the head's slice of the output weight holds `W (o, 64 h + d)`
  at (d, o).
-/
import proofs.«161823_j12627203850645_2_alg».proof.Proof.Gen.KernelIdeal.Frame
import proofs.«161823_j12627203850645_2_alg».proof.Proof.Slices
import Idealize.ShloMosaic.Lib.Pipeline.Value
import Idealize.ShloMosaic.Lib.ValueLayout
import Idealize.ShloMosaic.Lib.StableHlo.Run
import Idealize.ShloMosaic.Lib.Tactic

noncomputable section

namespace Cert.Attn.Blocks

open Idealize.ShloMosaic Idealize.ShloMosaic.TcCoe Idealize.SL.Sem
open Cert.KernelIdeal Cert.KernelIdeal.Gen Cert.Attn.Pieces Idealize.ShloMosaic.ValueIdx

variable (m : (ℓ : Loc nD τ sig) → Buf (Elt Ideal) ℓ) (c : Dev nD) (t : Fin cfg0.N)

/-! ## The grid and the windows' block indices, decided once over the 512 points -/

/-- Point `t` has batch `t / 64`, tile `(t / 16) % 4` and head `t % 16`. -/
theorem coords_eq : ∀ t : Fin cfg0.N, ((grid0.coords t) 0).val = t.val / 64
    ∧ ((grid0.coords t) 1).val = t.val / 16 % 4 ∧ ((grid0.coords t) 2).val = t.val % 16 :=
  (by decide +kernel : ∀ t : Fin grid0.N, ((grid0.coords t) 0).val = t.val / 64
    ∧ ((grid0.coords t) 1).val = t.val / 16 % 4 ∧ ((grid0.coords t) 2).val = t.val % 16)

/-- The input's block index is (batch, 0, 0). -/
theorem index0 : ∀ t : Fin cfg0.N, win0_0.index t 0 = t.val / 64 ∧ win0_0.index t 1 = 0 ∧ win0_0.index t 2 = 0 :=
  (by decide +kernel : ∀ t : Fin grid0.N, win0_0.index t 0 = t.val / 64 ∧ win0_0.index t 1 = 0 ∧ win0_0.index t 2 = 0)

/-- The mask's block index is (batch, 0, tile, 0). -/
theorem index1 : ∀ t : Fin cfg0.N, win0_1.index t 0 = t.val / 64 ∧ win0_1.index t 1 = 0
    ∧ win0_1.index t 2 = t.val / 16 % 4 ∧ win0_1.index t 3 = 0 :=
  (by decide +kernel : ∀ t : Fin grid0.N, win0_1.index t 0 = t.val / 64 ∧ win0_1.index t 1 = 0
    ∧ win0_1.index t 2 = t.val / 16 % 4 ∧ win0_1.index t 3 = 0)

/-- The scale's block index is 0. -/
theorem index6 : ∀ t : Fin cfg0.N, win0_6.index t 0 = 0 :=
  (by decide +kernel : ∀ t : Fin grid0.N, win0_6.index t 0 = 0)

/-- The shift's block index is 0. -/
theorem index7 : ∀ t : Fin cfg0.N, win0_7.index t 0 = 0 :=
  (by decide +kernel : ∀ t : Fin grid0.N, win0_7.index t 0 = 0)

/-! ## The argument windows -/

/-- The input block at point `t` is the batch's slab of the input. -/
theorem enc_apply (u : Fin 1) (s i : Fin 1024) :
    (iblk m c 0 t : Vec Ideal S1x1024x1024 .f32) (ix3 u s i)
      = m ((c : Thread nD τ).loc main_arg0) (ix3 (bOf t) s i) := by
  have hi := index0 t
  have hu := u.isLt
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1 + 1 * u.val = t.val / 64; rw [hi.1]; omega
  | ⟨1, _⟩ => show win0_0.index t 1 * 1024 + 1 * s.val = s.val; rw [hi.2.1]; omega
  | ⟨2, _⟩ => show win0_0.index t 2 * 1024 + 1 * i.val = i.val; rw [hi.2.2]; omega

/-- The query tile of the input block: rows `256 q … 256 q + 255` of the batch's slab. -/
theorem tile_apply (u : Fin 1) (r : Fin 256) (i : Fin 1024) :
    tile (grid0.coords t) (iblk m c 0 t : Vec Ideal S1x1024x1024 .f32) (ix3 u r i)
      = m ((c : Thread nD τ).loc main_arg0) (ix3 (bOf t) (rowOf (qOf t) r) i) := by
  have hc := coords_eq t
  have hu := u.isLt
  have e : (Rect.unit (s := S1x1024x1024) (k0_off1 (grid0.coords t)) S1x256x1024.size
        (k0_off1_inb (grid0.coords t))).toLoadRect.idx (ix3 u r i) = ix3 (0 : Fin 1) (rowOf (qOf t) r) i :=
    funext fun a => Fin.ext (by
      match a with
      | ⟨0, _⟩ =>
        show k0_off1 (grid0.coords t) 0 + 1 * u.val = 0
        rw [k0_off1_eq]; show 0 + 1 * u.val = 0; omega
      | ⟨1, _⟩ =>
        show k0_off1 (grid0.coords t) 1 + 1 * r.val = 256 * (t.val / 16 % 4) + r.val
        rw [k0_off1_eq]; show 256 * ((grid0.coords t) 1).val + 1 * r.val = _; rw [hc.2.1]; omega
      | ⟨2, _⟩ =>
        show k0_off1 (grid0.coords t) 2 + 1 * i.val = i.val
        rw [k0_off1_eq]; show 0 + 1 * i.val = i.val; omega)
  unfold tile
  show (iblk m c 0 t : Vec Ideal S1x1024x1024 .f32) ((Rect.unit (s := S1x1024x1024) (k0_off1 (grid0.coords t))
    S1x256x1024.size (k0_off1_inb (grid0.coords t))).toLoadRect.idx (ix3 u r i)) = _
  rw [e, enc_apply]

/-- The mask block at point `t`: the tile's 256 rows of the batch's mask. -/
theorem mask_apply (u v : Fin 1) (r : Fin 256) (k : Fin 1024) :
    (iblk m c 1 t : Vec Ideal S1x1x256x1024 .i32) (ix4 u v r k)
      = m ((c : Thread nD τ).loc main_arg1) (ix4 (bOf t) (0 : Fin 1) (rowOf (qOf t) r) k) := by
  have hi := index1 t
  have hu := u.isLt
  have hv := v.isLt
  unfold iblk
  rw [View.read_apply]
  show V m c main_arg1 _ = m ((c : Thread nD τ).loc main_arg1) _
  rw [V_main_arg1]
  congr 1
  funext a
  apply Fin.ext
  match a with
  | ⟨0, _⟩ => show win0_1.index t 0 * 1 + 1 * u.val = t.val / 64; rw [hi.1]; omega
  | ⟨1, _⟩ => show win0_1.index t 1 * 1 + 1 * v.val = 0; rw [hi.2.1]; omega
  | ⟨2, _⟩ => show win0_1.index t 2 * 256 + 1 * r.val = 256 * (t.val / 16 % 4) + r.val; rw [hi.2.2.1]; omega
  | ⟨3, _⟩ => show win0_1.index t 3 * 1024 + 1 * k.val = k.val; rw [hi.2.2.2]; omega

/-- The scale block is the whole scale vector. -/
theorem gamma_apply (o : Fin 1024) :
    (iblk m c 6 t : Vec Ideal S1024 .f32) (ix1 o) = m ((c : Thread nD τ).loc main_arg6) (ix1 o) := by
  have hi := index6 t
  unfold iblk
  rw [View.read_apply]
  show V m c main_arg6 _ = m ((c : Thread nD τ).loc main_arg6) _
  rw [V_main_arg6]
  congr 1
  funext a
  apply Fin.ext
  match a with
  | ⟨0, _⟩ => show win0_6.index t 0 * 1024 + 1 * o.val = o.val; rw [hi]; omega

/-- The shift block is the whole shift vector. -/
theorem beta_apply (o : Fin 1024) :
    (iblk m c 7 t : Vec Ideal S1024 .f32) (ix1 o) = m ((c : Thread nD τ).loc main_arg7) (ix1 o) := by
  have hi := index7 t
  unfold iblk
  rw [View.read_apply]
  show V m c main_arg7 _ = m ((c : Thread nD τ).loc main_arg7) _
  rw [V_main_arg7]
  congr 1
  funext a
  apply Fin.ext
  match a with
  | ⟨0, _⟩ => show win0_7.index t 0 * 1024 + 1 * o.val = o.val; rw [hi]; omega

/-! ## The weight windows

The three projection weights reach the kernel regrouped by head: `W` of shape [1024, 1024] is cut into 16 groups of 64
rows, each group transposed, so that entry (h, i, d) of the result is `W (64 h + d, i)`. The output weights are cut
into 16 groups of 64 columns and the group axis moved first: entry (h, d, o) of the result is `W (o, 64 h + d)`.
Narrowing the element type changes nothing over the extended reals. -/

/-- The weight windows' block index is (0, 0, 0): the block is the whole array. -/
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- A projection weight regrouped by head, at (h, i, d): row `64 h + d`, column `i`. -/
theorem byHead_apply (W : FVec Ideal S1024x1024 .f32) (h : Fin 16) (i : Fin 1024) (d : Fin 64) :
    (truncf .bf16 (transpose S16x1024x64 [0, 2, 1] (shapeCast S16x64x1024 W shapeCasts_S1024x1024_S16x64x1024)
      transposes_S16x64x1024_S16x1024x64_0_2_1) bitsLt_bf16_f32 : FVec Ideal S16x1024x64 .bf16) (ix3 h i d)
      = W (ix2 (Cert.Attn.Spec.hd h d) i) := by
  rw [truncf_apply, transpose_ix3_021_apply]
  exact shapeCast_apply W _ (ix3 h d i) (ix2 (Cert.Attn.Spec.hd h d) i)
    (by rw [Shape.rowMajor_val_two, Shape.rowMajor_val_three]; rfl)

/-- The output weight regrouped by head, at (h, d, o): row `o`, column `64 h + d`. -/
theorem outByHead_apply (W : FVec Ideal S1024x1024 .f32) (h : Fin 16) (d : Fin 64) (o : Fin 1024) :
    (truncf .bf16 (transpose S16x64x1024 [1, 2, 0] (shapeCast S1024x16x64 W shapeCasts_S1024x1024_S1024x16x64)
      transposes_S1024x16x64_S16x64x1024_1_2_0) bitsLt_bf16_f32 : FVec Ideal S16x64x1024 .bf16) (ix3 h d o)
      = W (ix2 o (Cert.Attn.Spec.hd h d)) := by
  rw [truncf_apply, transpose_apply [1, 2, 0] _ transposes_S1024x16x64_S16x64x1024_1_2_0 (ix3 h d o) (ix3 o h d)
    (fun b => match b with | ⟨0, _⟩ => rfl | ⟨1, _⟩ => rfl | ⟨2, _⟩ => rfl)]
  exact shapeCast_apply W _ (ix3 o h d) (ix2 o (Cert.Attn.Spec.hd h d))
    (by
      rw [Shape.rowMajor_val_two, Shape.rowMajor_val_three]
      show o.val * 1024 + (h.val * 64 + d.val) = (o.val * 16 + h.val) * 64 + d.val
      omega)

/-- What the region finds in the regrouped `W_Q`. -/
theorem V_wq : (V m c main_v2 : S16x1024x64.Idx → EReal)
    = (truncf .bf16 (transpose S16x1024x64 [0, 2, 1] (shapeCast S16x64x1024
        (m ((c : Thread nD τ).loc main_arg2) : FVec Ideal S1024x1024 .f32) shapeCasts_S1024x1024_S16x64x1024)
      transposes_S16x64x1024_S16x1024x64_0_2_1) bitsLt_bf16_f32 : FVec Ideal S16x1024x64 .bf16) := by
  dsimp only [V, hostOps0]; after_results; rfl

/-- What the region finds in the regrouped `W_K`. -/
theorem V_wk : (V m c main_v5 : S16x1024x64.Idx → EReal)
    = (truncf .bf16 (transpose S16x1024x64 [0, 2, 1] (shapeCast S16x64x1024
        (m ((c : Thread nD τ).loc main_arg3) : FVec Ideal S1024x1024 .f32) shapeCasts_S1024x1024_S16x64x1024)
      transposes_S16x64x1024_S16x1024x64_0_2_1) bitsLt_bf16_f32 : FVec Ideal S16x1024x64 .bf16) := by
  dsimp only [V, hostOps0]; after_results; rfl

/-- What the region finds in the regrouped `W_V`. -/
theorem V_wv : (V m c main_v8 : S16x1024x64.Idx → EReal)
    = (truncf .bf16 (transpose S16x1024x64 [0, 2, 1] (shapeCast S16x64x1024
        (m ((c : Thread nD τ).loc main_arg4) : FVec Ideal S1024x1024 .f32) shapeCasts_S1024x1024_S16x64x1024)
      transposes_S16x64x1024_S16x1024x64_0_2_1) bitsLt_bf16_f32 : FVec Ideal S16x1024x64 .bf16) := by
  dsimp only [V, hostOps0]; after_results; rfl

/-- What the region finds in the regrouped `W_O`. -/
theorem V_wo : (V m c main_v11 : S16x64x1024.Idx → EReal)
    = (truncf .bf16 (transpose S16x64x1024 [1, 2, 0] (shapeCast S1024x16x64
        (m ((c : Thread nD τ).loc main_arg5) : FVec Ideal S1024x1024 .f32) shapeCasts_S1024x1024_S1024x16x64)
      transposes_S1024x16x64_S16x64x1024_1_2_0) bitsLt_bf16_f32 : FVec Ideal S16x64x1024 .bf16) := by
  dsimp only [V, hostOps0]; after_results; rfl

/-- The head's slice of a stack of projection weights starts at the head: entry (u, i, d) is entry (h, i, d). -/
theorem wsl_idx (u : Fin 1) (i : Fin 1024) (d : Fin 64) :
    (Rect.unit (s := S16x1024x64) (k0_off2 (grid0.coords t)) S1x1024x64.size
      (k0_off2_inb (grid0.coords t))).toLoadRect.idx (ix3 u i d) = ix3 (hOf t) i d :=
  funext fun a => Fin.ext (by
    have hc := coords_eq t
    have hu := u.isLt
    match a with
    | ⟨0, _⟩ =>
      show k0_off2 (grid0.coords t) 0 + 1 * u.val = t.val % 16
      rw [k0_off2_eq]; show ((grid0.coords t) 2).val + 1 * u.val = _; rw [hc.2.2]; omega
    | ⟨1, _⟩ =>
      show k0_off2 (grid0.coords t) 1 + 1 * i.val = i.val
      rw [k0_off2_eq]; show 0 + 1 * i.val = i.val; omega
    | ⟨2, _⟩ =>
      show k0_off2 (grid0.coords t) 2 + 1 * d.val = d.val
      rw [k0_off2_eq]; show 0 + 1 * d.val = d.val; omega)

/-- The head's slice of the stack of output weights starts at the head: entry (u, d, o) is entry (h, d, o). -/
theorem wosl_idx (u : Fin 1) (d : Fin 64) (o : Fin 1024) :
    (Rect.unit (s := S16x64x1024) (k0_off3 (grid0.coords t)) S1x64x1024.size
      (k0_off3_inb (grid0.coords t))).toLoadRect.idx (ix3 u d o) = ix3 (hOf t) d o :=
  funext fun a => Fin.ext (by
    have hc := coords_eq t
    have hu := u.isLt
    match a with
    | ⟨0, _⟩ =>
      show k0_off3 (grid0.coords t) 0 + 1 * u.val = t.val % 16
      rw [k0_off3_eq]; show ((grid0.coords t) 2).val + 1 * u.val = _; rw [hc.2.2]; omega
    | ⟨1, _⟩ =>
      show k0_off3 (grid0.coords t) 1 + 1 * d.val = d.val
      rw [k0_off3_eq]; show 0 + 1 * d.val = d.val; omega
    | ⟨2, _⟩ =>
      show k0_off3 (grid0.coords t) 2 + 1 * o.val = o.val
      rw [k0_off3_eq]; show 0 + 1 * o.val = o.val; omega)

/-- The block of the regrouped `W_Q` is the whole array. -/
theorem blk2_apply (h : Fin 16) (i : Fin 1024) (d : Fin 64) :
    (iblk m c 2 t : Vec Ideal S16x1024x64 .bf16) (ix3 h i d) = (V m c main_v2 : S16x1024x64.Idx → EReal) (ix3 h i d) := by
  have hi := index2 t
  unfold iblk
  rw [View.read_apply]
  show V m c main_v2 _ = V m c main_v2 _
  congr 1
  funext a
  apply Fin.ext
  match a with
  | ⟨0, _⟩ => show win0_2.index t 0 * 16 + 1 * h.val = h.val; rw [hi.1]; omega
  | ⟨1, _⟩ => show win0_2.index t 1 * 1024 + 1 * i.val = i.val; rw [hi.2.1]; omega
  | ⟨2, _⟩ => show win0_2.index t 2 * 64 + 1 * d.val = d.val; rw [hi.2.2]; omega

/-- The block of the regrouped `W_K` is the whole array. -/
theorem blk3_apply (h : Fin 16) (i : Fin 1024) (d : Fin 64) :
    (iblk m c 3 t : Vec Ideal S16x1024x64 .bf16) (ix3 h i d) = (V m c main_v5 : S16x1024x64.Idx → EReal) (ix3 h i d) := by
  have hi := index3 t
  unfold iblk
  rw [View.read_apply]
  show V m c main_v5 _ = V m c main_v5 _
  congr 1
  funext a
  apply Fin.ext
  match a with
  | ⟨0, _⟩ => show win0_3.index t 0 * 16 + 1 * h.val = h.val; rw [hi.1]; omega
  | ⟨1, _⟩ => show win0_3.index t 1 * 1024 + 1 * i.val = i.val; rw [hi.2.1]; omega
  | ⟨2, _⟩ => show win0_3.index t 2 * 64 + 1 * d.val = d.val; rw [hi.2.2]; omega

/-- The block of the regrouped `W_V` is the whole array. -/
theorem blk4_apply (h : Fin 16) (i : Fin 1024) (d : Fin 64) :
    (iblk m c 4 t : Vec Ideal S16x1024x64 .bf16) (ix3 h i d) = (V m c main_v8 : S16x1024x64.Idx → EReal) (ix3 h i d) := by
  have hi := index4 t
  unfold iblk
  rw [View.read_apply]
  show V m c main_v8 _ = V m c main_v8 _
  congr 1
  funext a
  apply Fin.ext
  match a with
  | ⟨0, _⟩ => show win0_4.index t 0 * 16 + 1 * h.val = h.val; rw [hi.1]; omega
  | ⟨1, _⟩ => show win0_4.index t 1 * 1024 + 1 * i.val = i.val; rw [hi.2.1]; omega
  | ⟨2, _⟩ => show win0_4.index t 2 * 64 + 1 * d.val = d.val; rw [hi.2.2]; omega

/-- The block of the regrouped `W_O` is the whole array. -/
theorem blk5_apply (h : Fin 16) (d : Fin 64) (o : Fin 1024) :
    (iblk m c 5 t : Vec Ideal S16x64x1024 .bf16) (ix3 h d o) = (V m c main_v11 : S16x64x1024.Idx → EReal) (ix3 h d o) := by
  have hi := index5 t
  unfold iblk
  rw [View.read_apply]
  show V m c main_v11 _ = V m c main_v11 _
  congr 1
  funext a
  apply Fin.ext
  match a with
  | ⟨0, _⟩ => show win0_5.index t 0 * 16 + 1 * h.val = h.val; rw [hi.1]; omega
  | ⟨1, _⟩ => show win0_5.index t 1 * 64 + 1 * d.val = d.val; rw [hi.2.1]; omega
  | ⟨2, _⟩ => show win0_5.index t 2 * 1024 + 1 * o.val = o.val; rw [hi.2.2]; omega

/-- The head's slice of `W_Q`: row `64 h + d`, column `i`. -/
theorem wq_apply (u : Fin 1) (i : Fin 1024) (d : Fin 64) :
    wsl (grid0.coords t) (iblk m c 2 t : Vec Ideal S16x1024x64 .bf16) (ix3 u i d)
      = m ((c : Thread nD τ).loc main_arg2) (ix2 (Cert.Attn.Spec.hd (hOf t) d) i) := by
  unfold wsl
  show (iblk m c 2 t : Vec Ideal S16x1024x64 .bf16) ((Rect.unit (s := S16x1024x64) (k0_off2 (grid0.coords t))
    S1x1024x64.size (k0_off2_inb (grid0.coords t))).toLoadRect.idx (ix3 u i d)) = _
  rw [wsl_idx, blk2_apply, V_wq, byHead_apply]

/-- The head's slice of `W_K`: row `64 h + d`, column `i`. -/
theorem wk_apply (u : Fin 1) (i : Fin 1024) (d : Fin 64) :
    wsl (grid0.coords t) (iblk m c 3 t : Vec Ideal S16x1024x64 .bf16) (ix3 u i d)
      = m ((c : Thread nD τ).loc main_arg3) (ix2 (Cert.Attn.Spec.hd (hOf t) d) i) := by
  unfold wsl
  show (iblk m c 3 t : Vec Ideal S16x1024x64 .bf16) ((Rect.unit (s := S16x1024x64) (k0_off2 (grid0.coords t))
    S1x1024x64.size (k0_off2_inb (grid0.coords t))).toLoadRect.idx (ix3 u i d)) = _
  rw [wsl_idx, blk3_apply, V_wk, byHead_apply]

/-- The head's slice of `W_V`: row `64 h + d`, column `i`. -/
theorem wv_apply (u : Fin 1) (i : Fin 1024) (d : Fin 64) :
    wsl (grid0.coords t) (iblk m c 4 t : Vec Ideal S16x1024x64 .bf16) (ix3 u i d)
      = m ((c : Thread nD τ).loc main_arg4) (ix2 (Cert.Attn.Spec.hd (hOf t) d) i) := by
  unfold wsl
  show (iblk m c 4 t : Vec Ideal S16x1024x64 .bf16) ((Rect.unit (s := S16x1024x64) (k0_off2 (grid0.coords t))
    S1x1024x64.size (k0_off2_inb (grid0.coords t))).toLoadRect.idx (ix3 u i d)) = _
  rw [wsl_idx, blk4_apply, V_wv, byHead_apply]

/-- The head's slice of `W_O`: row `o`, column `64 h + d`. -/
theorem wo_apply (u : Fin 1) (d : Fin 64) (o : Fin 1024) :
    wosl (grid0.coords t) (iblk m c 5 t : Vec Ideal S16x64x1024 .bf16) (ix3 u d o)
      = m ((c : Thread nD τ).loc main_arg5) (ix2 o (Cert.Attn.Spec.hd (hOf t) d)) := by
  unfold wosl
  show (iblk m c 5 t : Vec Ideal S16x64x1024 .bf16) ((Rect.unit (s := S16x64x1024) (k0_off3 (grid0.coords t))
    S1x64x1024.size (k0_off3_inb (grid0.coords t))).toLoadRect.idx (ix3 u d o)) = _
  rw [wosl_idx, blk5_apply, V_wo, outByHead_apply]

end Cert.Attn.Blocks

end
-- ==== Proof.Pieces.lean ====
/-
  What the kernel body leaves behind at a grid point, case by case, as values of the blocks it was handed.

  At every point the body writes the tile's attention weights into the second output's buffer and adds the head's
  contribution to the running sum it carries; at a batch-and-tile's first head the running sum starts from zero,
  and at its last head the first output's buffer receives the normalised rows.
-/
import proofs.«161823_j12627203850645_2_alg».proof.Proof.Gen.KernelIdeal.Frame
import proofs.«161823_j12627203850645_2_alg».proof.Proof.Slices
import Idealize.ShloMosaic.Lib.Pipeline.Value
import Idealize.ShloMosaic.Lib.Tactic

set_option maxRecDepth 16384

noncomputable section

namespace Cert.Attn.Pieces

open Idealize.ShloMosaic Idealize.ShloMosaic.TcCoe Idealize.ShloMosaic.Tactic Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The tile's scaled scores. -/
def scoresAt (i : grid0.Coords) (x0 : Vec F S1x1024x1024 .f32) (x2 x3 : Vec F S16x1024x64 .bf16) : FVec F S256x1024 .f32 :=
  k0_pay10 (tile i x0) x0 (wsl i x2) (wsl i x3)

/-- The running sum after this head's contribution is added to `acc`. -/
def step (i : grid0.Coords) (x0 : Vec F S1x1024x1024 .f32) (x1 : Vec F S1x1x256x1024 .i32) (x2 x3 x4 : Vec F S16x1024x64 .bf16)
    (x5 : Vec F S16x64x1024 .bf16) (acc : Vec F S256x1024 .f32) : FVec F S256x1024 .f32 :=
  k0_pay3 (k0_pay8 (wosl i x5)) (k0_pay9 x0 (wsl i x4)) (scoresAt i x0 x2 x3) x1 acc

/-- First head: the running sum is zeroed, then the head's contribution is added. -/
theorem sout_A (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : cond0_0 i) (hc1 : ¬cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 = step i x0 x1 x2 x3 x4 x5 k0_pay5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x1024) hz2, View.readCov_unit_zero (S := S256x1024) _ hz2]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

/-- A middle head: the head's contribution is added to what the point before left. -/
theorem sout_B (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : ¬cond0_0 i) (hc1 : ¬cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) (xs0 : Vec F S256x1024 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = step i x0 x1 x2 x3 x4 x5 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0)]
  unfold kernelRun0_B
  dsimp only
  sl_unfold_words
  rw [View.canon_unit_zero (S := S256x1024) hz2]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

/-- Last head: the same for the running sum. -/
theorem sout_C (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : ¬cond0_0 i) (hc1 : cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) (xs0 : Vec F S256x1024 .f32) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = step i x0 x1 x2 x3 x4 x5 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0)]
  unfold kernelRun0_C
  dsimp only
  sl_unfold_words
  rw [View.canon_unit_zero (S := S256x1024) hz2]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

/-- The attention weights' buffer, in each case: the softmax of the tile's masked scores. -/
theorem out9_A (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : cond0_0 i) (hc1 : ¬cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) :
    out0_A_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay2 (scoresAt i x0 x2 x3) x1 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero (S := S1x1x256x1024) hz4]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

theorem out9_B (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : ¬cond0_0 i) (hc1 : ¬cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) (xs0 : Vec F S256x1024 .f32) :
    out0_B_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = k0_pay2 (scoresAt i x0 x2 x3) x1 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0)]
  unfold kernelRun0_B
  dsimp only
  sl_unfold_words
  rw [View.canon_unit_zero (S := S1x1x256x1024) hz4]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

theorem out9_C (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : ¬cond0_0 i) (hc1 : cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) (xs0 : Vec F S256x1024 .f32) :
    out0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = k0_pay2 (scoresAt i x0 x2 x3) x1 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0)]
  unfold kernelRun0_C
  dsimp only
  sl_unfold_words
  rw [View.canon_unit_zero (S := S1x1x256x1024) hz4]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

/-- Last head: the layer output's buffer receives the normalised rows of the finished running sum plus the tile. -/
theorem out8_C (c : Dev nD) (i : grid0.Coords) (arg3 : Memref sig .tc .vmem S1x1024x1024 .f32) (harg3 : arg3.IsWhole) (arg4 : Memref sig .tc .vmem S1x1x256x1024 .i32) (harg4 : arg4.IsWhole) (arg5 : Memref sig .tc .vmem S16x1024x64 .bf16) (harg5 : arg5.IsWhole) (arg6 : Memref sig .tc .vmem S16x1024x64 .bf16) (harg6 : arg6.IsWhole) (arg7 : Memref sig .tc .vmem S16x1024x64 .bf16) (harg7 : arg7.IsWhole) (arg8 : Memref sig .tc .vmem S16x64x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1x256x1024 .f32) (harg11 : arg11.IsWhole) (arg12 : Memref sig .tc .vmem S1x1x256x1024 .f32) (harg12 : arg12.IsWhole) (arg13 : Memref sig .tc .vmem S256x1024 .f32) (harg13 : arg13.IsWhole) (hc0 : ¬cond0_0 i) (hc1 : cond0_1 i) (x0 : Vec F S1x1024x1024 .f32) (x1 : Vec F S1x1x256x1024 .i32) (x2 : Vec F S16x1024x64 .bf16) (x3 : Vec F S16x1024x64 .bf16) (x4 : Vec F S16x1024x64 .bf16) (x5 : Vec F S16x64x1024 .bf16) (x6 : Vec F S1024 .f32) (x7 : Vec F S1024 .f32) (xs0 : Vec F S256x1024 .f32) :
    out0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 = k0_pay4 (k0_pay6 (tile i x0)) (step i x0 x1 x2 x3 x4 x5 xs0) x6 x7 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0)]
  unfold kernelRun0_C
  dsimp only
  sl_unfold_words
  rw [View.canon_unit_zero (S := S1x256x1024) hz3, View.readCov_unit_zero (S := S256x1024) _ hz2]
  simp only [View.readAt_eq_ld, harg3.read_unread, harg4.read_unread, harg5.read_unread, harg6.read_unread, harg7.read_unread,
    harg8.read_unread, harg9.read_unread, harg10.read_unread, harg13.read_unread,
    View.ld_unit_zero (S := S1x1024x1024) hz3, View.ld_unit_zero (S := S1x1x256x1024) hz4, View.ld_unit_zero (S := S256x1024) hz2,
    View.ld_unit_zero (S := S1024) hz1]
  rfl

end Cert.Attn.Pieces

end
-- ==== Proof.MatMul.lean ====
/-
  The kernel's three matrix products, read at an entry: a rows × inner by inner × columns product accumulated into
  zero is, at (row, column), the sum over the inner coordinate of the products of the two operands' entries.
-/
import proofs.«161823_j12627203850645_2_alg».proof.Proof.Gen.KernelIdeal
import Idealize.ShloMosaic.Lib.ValueIdx
import Idealize.ShloMosaic.PureOps.Ideal.Laws

noncomputable section

namespace Cert.Attn.MatMul

open Idealize.ShloMosaic Idealize.ShloMosaic.ValueIdx Cert.KernelIdeal Cert.KernelIdeal.Gen

theorem mm_256x1024x64_l0 (i : S256x64.Idx) (q : dot_S256x1024_S1024x64_S256x64_1_0_0_1_n_n.contr.Idx) : (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide),
    dif_pos (show (0 : Fin S256x1024.rank) ∈ dot_S256x1024_S1024x64_S256x64_1_0_0_1_n_n.lhsNonContracting by decide)]
  rfl
theorem mm_256x1024x64_l1 (i : S256x64.Idx) (q : dot_S256x1024_S1024x64_S256x64_1_0_0_1_n_n.contr.Idx) : (dot_S256x1024_S1024x64_S256x64_1_0_0_1_n_n.lhsIdx i q 1).val = (q ⟨0, by decide⟩).val :=
  dot_S256x1024_S1024x64_S256x64_1_0_0_1_n_n.lhsIdx_val_of_single rfl i q
theorem mm_256x1024x64_r0 (i : S256x64.Idx) (q : dot_S256x1024_S1024x64_S256x64_1_0_0_1_n_n.contr.Idx) : (dot_S256x1024_S1024x64_S256x64_1_0_0_1_n_n.rhsIdx i q 0).val = (q ⟨0, by decide⟩).val :=
  dot_S256x1024_S1024x64_S256x64_1_0_0_1_n_n.rhsIdx_val_of_single rfl i q
theorem mm_256x1024x64_r1 (i : S256x64.Idx) (q : dot_S256x1024_S1024x64_S256x64_1_0_0_1_n_n.contr.Idx) : (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide),
    dif_pos (show (1 : Fin S1024x64.rank) ∈ dot_S256x1024_S1024x64_S256x64_1_0_0_1_n_n.rhsNonContracting by decide)]
  rfl

/-- [256, 1024] by [1024, 64]. -/
theorem mm_256x1024x64 {φ₁ φ₂ : FTy} (l : FVec Ideal S256x1024 φ₁) (r : FVec Ideal S1024x64 φ₂) (p : Fin 256) (c : Fin 64) :
    matmul dot_S256x1024_S1024x64_S256x64_1_0_0_1_n_n none l r (constant S256x64 .f32 0x00000000#32) (ix2 p c)
      = ∑ k : Fin 1024, l (ix2 p k) * r (ix2 k c) := by
  refine (Ideal.matmul_constant_zero_apply dot_S256x1024_S1024x64_S256x64_1_0_0_1_n_n none l r (ix2 p c)).trans ?_
  rw [← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 p c) ((contrEquiv1 dot_S256x1024_S1024x64_S256x64_1_0_0_1_n_n 1024 rfl rfl).symm k) = ix2 p k :=
    funext fun a => Fin.ext (by
      match a with
      | ⟨0, _⟩ => exact mm_256x1024x64_l0 _ _
      | ⟨1, _⟩ => exact (mm_256x1024x64_l1 _ _).trans hk)
  have er : dot_S256x1024_S1024x64_S256x64_1_0_0_1_n_n.rhsIdx (ix2 p c) ((contrEquiv1 dot_S256x1024_S1024x64_S256x64_1_0_0_1_n_n 1024 rfl rfl).symm k) = ix2 k c :=
    funext fun a => Fin.ext (by
      match a with
      | ⟨0, _⟩ => exact (mm_256x1024x64_r0 _ _).trans hk
      | ⟨1, _⟩ => exact mm_256x1024x64_r1 _ _)
  rw [el, er]

theorem mm_1024x1024x64_l0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem mm_1024x1024x64_l1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem mm_1024x1024x64_r0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem mm_1024x1024x64_r1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- [1024, 1024] by [1024, 64]. -/
theorem mm_1024x1024x64 {φ₁ φ₂ : FTy} (l : FVec Ideal S1024x1024 φ₁) (r : FVec Ideal S1024x64 φ₂) (p : Fin 1024) (c : Fin 64) :
    matmul dot_S1024x1024_S1024x64_S1024x64_1_0_0_1_n_n none l r (constant S1024x64 .f32 0x00000000#32) (ix2 p c)
      = ∑ k : Fin 1024, l (ix2 p k) * r (ix2 k c) := by
  refine (Ideal.matmul_constant_zero_apply dot_S1024x1024_S1024x64_S1024x64_1_0_0_1_n_n none l r (ix2 p c)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p c) ((contrEquiv1 dot_S1024x1024_S1024x64_S1024x64_1_0_0_1_n_n 1024 rfl rfl).symm k) = ix2 p k :=
    funext fun a => Fin.ext (by
      match a with
      | ⟨0, _⟩ => exact mm_1024x1024x64_l0 _ _
      | ⟨1, _⟩ => exact (mm_1024x1024x64_l1 _ _).trans hk)
  have er : dot_S1024x1024_S1024x64_S1024x64_1_0_0_1_n_n.rhsIdx (ix2 p c) ((contrEquiv1 dot_S1024x1024_S1024x64_S1024x64_1_0_0_1_n_n 1024 rfl rfl).symm k) = ix2 k c :=
    funext fun a => Fin.ext (by
      match a with
      | ⟨0, _⟩ => exact (mm_1024x1024x64_r0 _ _).trans hk
      | ⟨1, _⟩ => exact mm_1024x1024x64_r1 _ _)
  rw [el, er]

theorem mm_256x64x1024_l0 (i : S256x1024.Idx) (q : dot_S256x64_S64x1024_S256x1024_1_0_0_1_n_n.contr.Idx) : (dot_S256x64_S64x1024_S256x1024_1_0_0_1_n_n.lhsIdx i q 0).val = (i 0).val := by
  unfold DotDims.lhsIdx
  rw [dif_neg (show ¬(0 : Fin S256x64.rank) ∈ dot_S256x64_S64x1024_S256x1024_1_0_0_1_n_n.lhsBatch by decide),
    dif_pos (show (0 : Fin S256x64.rank) ∈ dot_S256x64_S64x1024_S256x1024_1_0_0_1_n_n.lhsNonContracting by decide)]
  rfl
theorem mm_256x64x1024_l1 (i : S256x1024.Idx) (q : dot_S256x64_S64x1024_S256x1024_1_0_0_1_n_n.contr.Idx) : (dot_S256x64_S64x1024_S256x1024_1_0_0_1_n_n.lhsIdx i q 1).val = (q ⟨0, by decide⟩).val :=
  dot_S256x64_S64x1024_S256x1024_1_0_0_1_n_n.lhsIdx_val_of_single rfl i q
theorem mm_256x64x1024_r0 (i : S256x1024.Idx) (q : dot_S256x64_S64x1024_S256x1024_1_0_0_1_n_n.contr.Idx) : (dot_S256x64_S64x1024_S256x1024_1_0_0_1_n_n.rhsIdx i q 0).val = (q ⟨0, by decide⟩).val :=
  dot_S256x64_S64x1024_S256x1024_1_0_0_1_n_n.rhsIdx_val_of_single rfl i q
theorem mm_256x64x1024_r1 (i : S256x1024.Idx) (q : dot_S256x64_S64x1024_S256x1024_1_0_0_1_n_n.contr.Idx) : (dot_S256x64_S64x1024_S256x1024_1_0_0_1_n_n.rhsIdx i q 1).val = (i 1).val := by
  unfold DotDims.rhsIdx
  rw [dif_neg (show ¬(1 : Fin S64x1024.rank) ∈ dot_S256x64_S64x1024_S256x1024_1_0_0_1_n_n.rhsBatch by decide),
    dif_pos (show (1 : Fin S64x1024.rank) ∈ dot_S256x64_S64x1024_S256x1024_1_0_0_1_n_n.rhsNonContracting by decide)]
  rfl

/-- [256, 64] by [64, 1024]. -/
theorem mm_256x64x1024 {φ₁ φ₂ : FTy} (l : FVec Ideal S256x64 φ₁) (r : FVec Ideal S64x1024 φ₂) (p : Fin 256) (c : Fin 1024) :
    matmul dot_S256x64_S64x1024_S256x1024_1_0_0_1_n_n none l r (constant S256x1024 .f32 0x00000000#32) (ix2 p c)
      = ∑ k : Fin 64, l (ix2 p k) * r (ix2 k c) := by
  refine (Ideal.matmul_constant_zero_apply dot_S256x64_S64x1024_S256x1024_1_0_0_1_n_n none l r (ix2 p c)).trans ?_
  rw [← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 p c) ((contrEquiv1 dot_S256x64_S64x1024_S256x1024_1_0_0_1_n_n 64 rfl rfl).symm k) = ix2 p k :=
    funext fun a => Fin.ext (by
      match a with
      | ⟨0, _⟩ => exact mm_256x64x1024_l0 _ _
      | ⟨1, _⟩ => exact (mm_256x64x1024_l1 _ _).trans hk)
  have er : dot_S256x64_S64x1024_S256x1024_1_0_0_1_n_n.rhsIdx (ix2 p c) ((contrEquiv1 dot_S256x64_S64x1024_S256x1024_1_0_0_1_n_n 64 rfl rfl).symm k) = ix2 k c :=
    funext fun a => Fin.ext (by
      match a with
      | ⟨0, _⟩ => exact (mm_256x64x1024_r0 _ _).trans hk
      | ⟨1, _⟩ => exact mm_256x64x1024_r1 _ _)
  rw [el, er]

end Cert.Attn.MatMul

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Rows.lean ====
/-
  Readings at an index given by coordinates: a block with two leading unit axes flattened to a matrix and back, and
  the maximum along each row of a matrix, folded from the accumulator's value.
-/
import proofs.«161823_j12627203850645_2_alg».proof.Proof.LibLayout
import Idealize.ShloMosaic.Lib.ValueLayout
import Idealize.ShloMosaic.PureOps.Ideal.Laws

namespace Cert.Attn.Rows

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- The maximum along the rows of an `[a, b]` array of extended reals, read at row `p`: the maximum, from the
    accumulator's value, of the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  show (Finset.univ : Finset (Fin b)).fold max (Ideal.ofBits .f32 acc) (src ∘ h.lift (ix1 p)) = _
  congr 1
  funext k
  exact congrArg src (Cert.Attn.Layout.lift_row h p k)

end Cert.Attn.Rows
-- ==== Proof.Payload.lean ====
/-
  The kernel body's values, read at an entry, as functions of the blocks the body loads.

  Per grid point the body sees: the batch's input block, a query tile of it, the mask tile, head `h`'s slices of the
  four weight stacks, and the running sum of the heads' contributions. It forms the tile's scaled scores (a product of
  the query projection with the transposed key projection, times one eighth), the row-wise softmax of the masked
  scores, the value projection, and adds this head's output projection of the softmax-weighted values to the running
  sum; after the last head it normalises each row of the sum plus the query tile.
-/
import proofs.«161823_j12627203850645_2_alg».proof.Proof.Gen.KernelIdeal.Skeleton
import proofs.«161823_j12627203850645_2_alg».proof.Proof.MatMul
import proofs.«161823_j12627203850645_2_alg».proof.Proof.Rows
import proofs.«161823_j12627203850645_2_alg».proof.Proof.LibLayout
import proofs.«161823_j12627203850645_2_alg».proof.Proof.Spec
import Idealize.ShloMosaic.Lib.ValueLayout
import Idealize.ShloMosaic.Lib.Pipeline.Value

noncomputable section

namespace Cert.Attn.Payload

open Idealize.ShloMosaic Idealize.ShloMosaic.ValueIdx Cert.KernelIdeal Cert.KernelIdeal.Gen Cert.Attn

/-! ## Stages over a 256 × 1024 matrix -/

/-- The column of row sums, at row `r`. -/
theorem rowSumCol (X : FVec Ideal S256x1024 .f32) (h : S256x1024.Reduces [1] S256) (h2 : S256.ShapeCasts S256x1)
    (r : Fin 256) (u : Fin 1) :
    shapeCast S256x1 (multiReduction .add [1] S256 X 0x00000000#32 h (.inl rfl) rfl) h2 (ix2 r u)
      = ∑ k : Fin 1024, X (ix2 r k) :=
  (Layout.shapeCast_a_a1_apply _ h2 r u).trans (Layout.rowSum_apply X h (.inl rfl) rfl r)

/-- The column of row maxima, at row `r`. -/
theorem rowMaxCol (X : FVec Ideal S256x1024 .f32) (h : S256x1024.Reduces [1] S256) (h2 : S256.ShapeCasts S256x1)
    (r : Fin 256) (u : Fin 1) :
    shapeCast S256x1 (multiReduction .maximumf [1] S256 X 0xFF800000#32 h (.inl rfl) rfl) h2 (ix2 r u)
      = (Finset.univ : Finset (Fin 1024)).fold max Spec.negInf (fun k => X (ix2 r k)) :=
  (Layout.shapeCast_a_a1_apply _ h2 r u).trans (Rows.rowMax_apply X 0xFF800000#32 h (.inl rfl) rfl r)

/-- The row-wise softmax of a matrix, at `(r, k)`. -/
theorem softmax_apply (X : FVec Ideal S256x1024 .f32) (h : S256x1024.Reduces [1] S256) (h2 : S256.ShapeCasts S256x1)
    (h3 : S256x1.Broadcasts S256x1024) (r : Fin 256) (k : Fin 1024) :
    divf (exp (subf X (broadcastTo S256x1024 (shapeCast S256x1 (multiReduction .maximumf [1] S256 X 0xFF800000#32 h (.inl rfl) rfl) h2) h3)))
      (broadcastTo S256x1024 (shapeCast S256x1 (multiReduction .add [1] S256
        (exp (subf X (broadcastTo S256x1024 (shapeCast S256x1 (multiReduction .maximumf [1] S256 X 0xFF800000#32 h (.inl rfl) rfl) h2) h3)))
        0x00000000#32 h (.inl rfl) rfl) h2) h3) (ix2 r k)
      = Ideal.div (Ideal.exp (X (ix2 r k) - (Finset.univ : Finset (Fin 1024)).fold max Spec.negInf (fun k' => X (ix2 r k'))))
          (∑ k' : Fin 1024, Ideal.exp (X (ix2 r k') - (Finset.univ : Finset (Fin 1024)).fold max Spec.negInf (fun k'' => X (ix2 r k'')))) := by
  have hm : ∀ k' : Fin 1024, (broadcastTo S256x1024 (shapeCast S256x1 (multiReduction .maximumf [1] S256 X 0xFF800000#32 h (.inl rfl) rfl) h2) h3) (ix2 r k')
      = (Finset.univ : Finset (Fin 1024)).fold max Spec.negInf (fun k'' => X (ix2 r k'')) := fun k' =>
    (Layout.broadcastTo_a1_ab_apply _ h3 r k').trans (rowMaxCol X h h2 r 0)
  have he : ∀ k' : Fin 1024, (exp (subf X (broadcastTo S256x1024 (shapeCast S256x1 (multiReduction .maximumf [1] S256 X 0xFF800000#32 h (.inl rfl) rfl) h2) h3))) (ix2 r k')
      = Ideal.exp (X (ix2 r k') - (Finset.univ : Finset (Fin 1024)).fold max Spec.negInf (fun k'' => X (ix2 r k''))) := fun k' =>
    congrArg (fun z => Ideal.exp (X (ix2 r k') - z)) (hm k')
  show Ideal.div (_ : EReal) (_ : EReal) = _
  refine congrArg₂ Ideal.div (he k) ?_
  refine (Layout.broadcastTo_a1_ab_apply _ h3 r k).trans ((rowSumCol _ h h2 r 0).trans ?_)
  exact Finset.sum_congr rfl fun k' _ => he k'

/-- The column of row means (row sums over 1024), broadcast back along the rows, at `(r, o)`. -/
theorem meanBcast_apply (R : FVec Ideal S256x1024 .f32) (h : S256x1024.Reduces [1] S256) (h2 : S256.ShapeCasts S256x1)
    (h3 : S256x1.Broadcasts S256x1024) (r : Fin 256) (o : Fin 1024) :
    broadcastTo S256x1024 (divf (shapeCast S256x1 (multiReduction .add [1] S256 R 0x00000000#32 h (.inl rfl) rfl) h2)
        (broadcast S256x1 (Scalar.ofBits .f32 0x44800000#32))) h3 (ix2 r o)
      = Ideal.div (∑ o' : Fin 1024, R (ix2 r o')) Spec.n1024 :=
  (Layout.broadcastTo_a1_ab_apply _ h3 r o).trans (congrArg (fun z => Ideal.div z Spec.n1024) (rowSumCol R h h2 r 0))

/-- A vector of 1024 entries laid along every row, at `(r, o)`. -/
theorem rowBcast_apply (g : Vec Ideal S1024 .f32) (h : S1024.ShapeCasts S1x1024) (h' : S1x1024.Broadcasts S256x1024)
    (r : Fin 256) (o : Fin 1024) : broadcastTo S256x1024 (shapeCast S1x1024 g h) h' (ix2 r o) = g (ix1 o) :=
  (broadcastTo_1b_ab_apply _ h' r o).trans (shapeCast_a_1a_apply g h 0 o)

/-! ## The blocks' projections and the tile's scores -/

section
variable (v6 : Vec Ideal S1x256x1024 .f32) (v8 : Vec Ideal S1x1024x1024 .f32)
  (v12 v15 v18 : Vec Ideal S1x1024x64 .bf16) (v21 : Vec Ideal S1x64x1024 .bf16)

/-- The query projection of the tile's row `r`, feature `d` of the head. -/
def qB (r : Fin 256) (d : Fin 64) : EReal := ∑ i : Fin 1024, v6 (ix3 (0 : Fin 1) r i) * v12 (ix3 (0 : Fin 1) i d)
/-- A projection (key or value) of position `k`, feature `d` of the head, with the head's weight slice `w`. -/
def pB (w : Vec Ideal S1x1024x64 .bf16) (k : Fin 1024) (d : Fin 64) : EReal :=
  ∑ i : Fin 1024, v8 (ix3 (0 : Fin 1) k i) * w (ix3 (0 : Fin 1) i d)
/-- The tile's scaled score of row `r` against position `k`. -/
def scoreB (r : Fin 256) (k : Fin 1024) : EReal :=
  (∑ d : Fin 64, qB v6 v12 r d * pB v8 v15 k d) * Ideal.ofBits .f32 0x3E000000#32

theorem pay6_apply (r : Fin 256) (i : Fin 1024) : k0_pay6 v6 (ix2 r i) = v6 (ix3 (0 : Fin 1) r i) :=
  shapeCast_1ab_ab_apply v6 _ r i

theorem pay7_apply (k i : Fin 1024) : k0_pay7 v8 (ix2 k i) = v8 (ix3 (0 : Fin 1) k i) :=
  shapeCast_1ab_ab_apply v8 _ k i

theorem pay8_apply (d : Fin 64) (o : Fin 1024) : k0_pay8 v21 (ix2 d o) = v21 (ix3 (0 : Fin 1) d o) :=
  shapeCast_1ab_ab_apply v21 _ d o

theorem pay9_apply (k : Fin 1024) (d : Fin 64) : k0_pay9 v8 v18 (ix2 k d) = pB v8 v18 k d := by
  unfold k0_pay9
  refine (MatMul.mm_1024x1024x64 _ _ k d).trans ?_
  exact Finset.sum_congr rfl fun i _ => congrArg₂ (· * ·) (pay7_apply v8 k i) (shapeCast_1ab_ab_apply v18 _ i d)

theorem pay10_apply (r : Fin 256) (k : Fin 1024) : k0_pay10 v6 v8 v12 v15 (ix2 r k) = scoreB v6 v8 v12 v15 r k := by
  unfold k0_pay10
  refine congrArg (· * Ideal.ofBits .f32 0x3E000000#32) ?_
  refine (MatMul.mm_256x64x1024 _ _ r k).trans ?_
  refine Finset.sum_congr rfl fun d _ => congrArg₂ (· * ·) ?_ ?_
  · refine (MatMul.mm_256x1024x64 _ _ r d).trans ?_
    exact Finset.sum_congr rfl fun i _ => congrArg₂ (· * ·) (pay6_apply v6 r i) (shapeCast_1ab_ab_apply v12 _ i d)
  · refine (transpose_ix2_apply _ _ d k).trans ?_
    refine (MatMul.mm_1024x1024x64 _ _ k d).trans ?_
    exact Finset.sum_congr rfl fun i _ => congrArg₂ (· * ·) (pay7_apply v8 k i) (shapeCast_1ab_ab_apply v15 _ i d)

end

/-! ## The softmax of the masked scores -/

section
variable (v32 : FVec Ideal S256x1024 .f32) (v33 : Vec Ideal S1x1x256x1024 .i32)

/-- The tile's score, or the fill where the mask tile's entry is zero. -/
def logitB (r : Fin 256) (k : Fin 1024) : EReal :=
  Scalar.select (IntOp.cmpi .eq (v33 (ix4 (0 : Fin 1) (0 : Fin 1) r k)) 0#32) Spec.fill (v32 (ix2 r k))

/-- The maximum of the tile's row `r`. -/
def rowMaxB (r : Fin 256) : EReal :=
  (Finset.univ : Finset (Fin 1024)).fold max Spec.negInf (fun k => logitB v32 v33 r k)

/-- The softmax weight of the tile's row `r` at position `k`. -/
def attnB (r : Fin 256) (k : Fin 1024) : EReal :=
  Ideal.div (Ideal.exp (logitB v32 v33 r k - rowMaxB v32 v33 r))
    (∑ k' : Fin 1024, Ideal.exp (logitB v32 v33 r k' - rowMaxB v32 v33 r))

theorem masked_apply (h : S1x1x256x1024.ShapeCasts S256x1024) (r : Fin 256) (k : Fin 1024) :
    (select (cmpi .eq (shapeCast S256x1024 v33 h) (broadcast S256x1024 (0#32 : BitVec 32)))
      (broadcast S256x1024 (Scalar.ofBits (F := Ideal) .f32 0xCE6E6B28#32)) v32 : FVec Ideal S256x1024 .f32) (ix2 r k)
      = logitB v32 v33 r k :=
  congrArg (fun z => Scalar.select (IntOp.cmpi .eq z 0#32) Spec.fill (v32 (ix2 r k))) (Rows.shapeCast_11ab_ab_apply v33 h r k)

theorem pay1_apply (r : Fin 256) (k : Fin 1024) : k0_pay1 v32 v33 (ix2 r k) = attnB v32 v33 r k := by
  unfold k0_pay1
  refine (softmax_apply _ _ _ _ r k).trans ?_
  unfold attnB rowMaxB
  simp only [masked_apply]

theorem pay2_apply (u v : Fin 1) (r : Fin 256) (k : Fin 1024) :
    k0_pay2 v32 v33 (ix4 u v r k) = attnB v32 v33 r k :=
  (Rows.shapeCast_ab_11ab_apply _ _ u v r k).trans (pay1_apply v32 v33 r k)

/-- This head's contribution is added to the running sum: the softmax-weighted values, projected by the head's
    slice of the output weights. -/
theorem pay3_apply (v22 : FVec Ideal S64x1024 .bf16) (v26 : FVec Ideal S1024x64 .f32) (v56 : Vec Ideal S256x1024 .f32)
    (r : Fin 256) (o : Fin 1024) :
    k0_pay3 v22 v26 v32 v33 v56 (ix2 r o)
      = v56 (ix2 r o) + ∑ d : Fin 64, (∑ k : Fin 1024, attnB v32 v33 r k * v26 (ix2 k d)) * v22 (ix2 d o) := by
  unfold k0_pay3
  refine (congrFun (shapeCast_self _ _) (ix2 r o)).trans ?_
  refine congrArg (v56 (ix2 r o) + ·) ?_
  refine (MatMul.mm_256x64x1024 _ _ r o).trans ?_
  refine Finset.sum_congr rfl fun d _ => congrArg (· * v22 (ix2 d o)) ?_
  refine (MatMul.mm_256x1024x64 _ _ r d).trans ?_
  exact Finset.sum_congr rfl fun k _ => congrArg (· * v26 (ix2 k d)) (pay1_apply v32 v33 r k)

end

/-! ## The layer normalisation of a tile -/

section
variable (v7 : FVec Ideal S256x1024 .f32) (v64 : Vec Ideal S256x1024 .f32) (v84 v88 : Vec Ideal S1024 .f32)

/-- The running sum plus the query tile. -/
def residB (r : Fin 256) (o : Fin 1024) : EReal := v64 (ix2 r o) + v7 (ix2 r o)
/-- The mean of row `r`. -/
def meanB (r : Fin 256) : EReal := Ideal.div (∑ o : Fin 1024, residB v7 v64 r o) Spec.n1024
/-- A centred entry. -/
def centB (r : Fin 256) (o : Fin 1024) : EReal := residB v7 v64 r o - meanB v7 v64 r
/-- The mean square of the centred row `r`. -/
def varB (r : Fin 256) : EReal := Ideal.div (∑ o : Fin 1024, centB v7 v64 r o * centB v7 v64 r o) Spec.n1024

theorem cent_apply (h : S256x1024.Reduces [1] S256) (h2 : S256.ShapeCasts S256x1) (h3 : S256x1.Broadcasts S256x1024)
    (r : Fin 256) (o : Fin 1024) :
    subf (addf v64 v7) (broadcastTo S256x1024 (divf (shapeCast S256x1 (multiReduction .add [1] S256 (addf v64 v7) 0x00000000#32 h (.inl rfl) rfl) h2)
        (broadcast S256x1 (Scalar.ofBits .f32 0x44800000#32))) h3) (ix2 r o) = centB v7 v64 r o :=
  congrArg (fun z => residB v7 v64 r o - z) (meanBcast_apply (addf v64 v7) h h2 h3 r o)

theorem pay4_apply (u : Fin 1) (r : Fin 256) (o : Fin 1024) :
    k0_pay4 v7 v64 v84 v88 (ix3 u r o)
      = centB v7 v64 r o * Ideal.rsqrt (varB v7 v64 r + Spec.eps) * v84 (ix1 o) + v88 (ix1 o) := by
  unfold k0_pay4
  refine (shapeCast_ab_1ab_apply _ _ u r o).trans ?_
  refine congrArg₂ (· + ·) (congrArg₂ (· * ·) (congrArg₂ (· * ·) (cent_apply v7 v64 _ _ _ r o) ?_) (rowBcast_apply v84 _ _ r o))
    (rowBcast_apply v88 _ _ r o)
  refine (Layout.broadcastTo_a1_ab_apply _ _ r o).trans ?_
  refine congrArg (fun z => Ideal.rsqrt (Ideal.div z Spec.n1024 + Spec.eps)) ?_
  refine (rowSumCol _ _ _ r 0).trans ?_
  exact Finset.sum_congr rfl fun o' _ => congrArg₂ (· * ·) (cent_apply v7 v64 _ _ _ r o') (cent_apply v7 v64 _ _ _ r o')

end

end Cert.Attn.Payload

end
-- ==== Proof.Accum.lean ====
/-
  The running sum the kernel carries across the sixteen heads of one batch and query tile.

  Each grid point adds its head's contribution to the sum; the first head of a run starts from the zero block. So
  after the point with head `h` the sum holds, entry by entry, zero plus the contributions of heads `0 … h`.
-/
import proofs.«161823_j12627203850645_2_alg».proof.Proof.Gen.KernelIdeal.Value
import proofs.«161823_j12627203850645_2_alg».proof.Proof.Pieces
import proofs.«161823_j12627203850645_2_alg».proof.Proof.Payload
import Idealize.ShloMosaic.Lib.Pipeline.Value

set_option maxRecDepth 16384

noncomputable section

namespace Cert.Attn.Accum

open Idealize.ShloMosaic Idealize.ShloMosaic.TcCoe Idealize.ShloMosaic.ValueIdx Idealize.SL.Sem
open Cert.KernelIdeal Cert.KernelIdeal.Gen Cert.Attn.Pieces Cert.Attn.Payload

variable (m : (ℓ : Loc nD τ sig) → Buf (Elt Ideal) ℓ) (c : Dev nD)

/-- The tile's scaled scores at grid point `t`. -/
def scoresT (t : Fin cfg0.N) : FVec Ideal S256x1024 .f32 :=
  scoresAt (grid0.coords t) (iblk m c 0 t) (iblk m c 2 t) (iblk m c 3 t)

/-- The running sum after grid point `t`, from the sum `acc` before it. -/
def stepT (t : Fin cfg0.N) (acc : Vec Ideal S256x1024 .f32) : Vec Ideal S256x1024 .f32 :=
  step (grid0.coords t) (iblk m c 0 t) (iblk m c 1 t) (iblk m c 2 t) (iblk m c 3 t) (iblk m c 4 t) (iblk m c 5 t) acc

/-- The contribution of grid point `t`'s head to the running sum, at an entry: the softmax-weighted values of the
    head, projected by the head's slice of the output weights. -/
def contrib (t : Fin cfg0.N) (i : S256x1024.Idx) : EReal :=
  ∑ d : Fin 64, (∑ k : Fin 1024, attnB (scoresT m c t) (iblk m c 1 t) (i 0) k
      * k0_pay9 (iblk m c 0 t) (wsl (grid0.coords t) (iblk m c 4 t)) (ix2 k d))
    * k0_pay8 (wosl (grid0.coords t) (iblk m c 5 t)) (ix2 d (i 1))

theorem stepT_apply (t : Fin cfg0.N) (acc : Vec Ideal S256x1024 .f32) (i : S256x1024.Idx) :
    stepT m c t acc i = acc i + contrib m c t i := by
  obtain ⟨r, o, rfl⟩ : ∃ (r : Fin 256) (o : Fin 1024), i = ix2 r o := ⟨i 0, i 1, eq_ix2 i⟩
  exact pay3_apply (scoresT m c t) (iblk m c 1 t) (k0_pay8 (wosl (grid0.coords t) (iblk m c 5 t)))
    (k0_pay9 (iblk m c 0 t) (wsl (grid0.coords t) (iblk m c 4 t))) acc r o

/-- At the first head of a run the generated step starts from the zero block … -/
theorem scAt_first (n : ℕ) (hb : n < cfg0.N) (acc : Vec Ideal S256x1024 .f32) (h0 : n % 16 = 0) :
    Cert.KernelIdeal.Value.scAt0_0 m c n hb acc = stepT m c ⟨n, hb⟩ (k0_pay5 (F := Ideal)) := by
  have h1 : ¬n % 16 = 15 := by omega
  unfold Cert.KernelIdeal.Value.scAt0_0
  rw [dif_pos h0, dif_neg h1]
  exact sout_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩)

/-- … and at every later head it continues from what the point before left. -/
theorem scAt_later (n : ℕ) (hb : n < cfg0.N) (acc : Vec Ideal S256x1024 .f32) (h0 : ¬n % 16 = 0) :
    Cert.KernelIdeal.Value.scAt0_0 m c n hb acc = stepT m c ⟨n, hb⟩ acc := by
  unfold Cert.KernelIdeal.Value.scAt0_0
  rw [dif_neg h0]
  by_cases h1 : n % 16 = 15
  · rw [dif_pos h1]
    exact sout_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc
  · rw [dif_neg h1]
    exact sout_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) (iblk m c 7 ⟨n, hb⟩) acc

/-- The contribution of the point numbered `n` (zero past the grid, where it is never used). -/
def addend (n : ℕ) (i : S256x1024.Idx) : EReal :=
  if h : n < cfg0.N then contrib m c ⟨n, h⟩ i else 0

/-- THE RUNNING SUM after grid point `t`, at an entry: the zero block's entry plus the contributions of the run's
    points up to `t`. -/
theorem scratch_apply (t : Fin cfg0.N) (i : S256x1024.Idx) :
    (outsAt0 m c t.val t.isLt).2.2 i
      = (k0_pay5 : FVec Ideal S256x1024 .f32) i + ∑ s ∈ Finset.range (t.val % 16 + 1), addend m c (16 * (t.val / 16) + s) i := by
  rw [Cert.KernelIdeal.Value.soutsAt0_0_eq m c t]
  refine Pipeline.accAt_add_apply _ _ (k0_pay5 : FVec Ideal S256x1024 .f32) (addend m c) (16 * (t.val / 16)) 15 ?_ ?_
    (t.val % 16) (by have := Nat.mod_lt t.val (show 0 < 16 by decide); omega) _ i
  · intro h i
    rw [scAt_first m c _ h _ (by omega), stepT_apply]
    unfold addend
    rw [dif_pos h]
  · intro n h acc i hlt hle
    rw [scAt_later m c n h acc (by omega), stepT_apply]
    unfold addend
    rw [dif_pos h]

end Cert.Attn.Accum

end
-- ==== Proof.Scalar.lean ====
/-
  Scalar laws on the extended reals that join the two programs' arithmetic.

  * Scaling by one eighth is dividing by eight, on every extended real.
  * A maximum taken from a start value lies above that start value, so taking the maximum with the start value once
    more changes nothing.
  * For a positive radicand, multiplying by the reciprocal square root is dividing by the square root, whatever the
    other factor is (an infinite radicand gives zero on both sides).
  * A mean of squares plus a positive constant is positive: every square of an extended real is nonnegative.
-/
import Idealize.ShloMosaic.PureOps.Ideal
import Idealize.ShloMosaic.PureOps.Ideal.Laws

noncomputable section

namespace Cert.Scalar

open Idealize.ShloMosaic

/-- The word of `0.125` denotes the real `1/8`. -/
theorem ofBits_eighth : Ideal.ofBits .f32 0x3E000000#32 = (((1 / 8 : ℝ)) : EReal) := by
  simp [Ideal.ofBits, Ideal.ieee, -EReal.coe_mul]; norm_num

/-- The word of `8.0` denotes the real `8`. -/
theorem ofBits_eight : Ideal.ofBits .f32 0x41000000#32 = ((8 : ℝ) : EReal) := by
  simp [Ideal.ofBits, Ideal.ieee, -EReal.coe_mul]; norm_num

/-- The word of `1024.0` denotes the real `1024`. -/
theorem ofBits_1024 : Ideal.ofBits .f32 0x44800000#32 = ((1024 : ℝ) : EReal) := by
  simp [Ideal.ofBits, Ideal.ieee, -EReal.coe_mul]; norm_num

/-- The word of the layer norm's small constant denotes a positive real. -/
theorem ofBits_eps_pos : (0 : EReal) < Ideal.ofBits .f32 0x358637BD#32 := by
  simp [Ideal.ofBits, Ideal.ieee, -EReal.coe_mul]

/-- Scaling by one eighth is dividing by eight. -/
theorem mul_eighth (x : EReal) :
    x * Ideal.ofBits .f32 0x3E000000#32 = Ideal.div x (Ideal.ofBits .f32 0x41000000#32) := by
  rw [ofBits_eighth, ofBits_eight, Ideal.div_coe (by norm_num : (8 : ℝ) ≠ 0)]

/-- A maximum folded from a start value lies above it. -/
theorem max_start_fold {ι : Type*} (s : Finset ι) (b : EReal) (f : ι → EReal) :
    max b (s.fold max b f) = s.fold max b f :=
  max_eq_right ((Finset.le_fold_max b).mpr (Or.inl le_rfl))

/-- For a positive radicand, the product with the reciprocal square root is the quotient by the square root. -/
theorem mul_rsqrt (x v : EReal) (hv : 0 < v) : x * Ideal.rsqrt v = Ideal.div x (Ideal.sqrt v) := by
  induction v using EReal.rec with
  | bot => exact absurd hv (by simp)
  | top =>
    show x * 0 = Ideal.div x ⊤
    rw [Ideal.div, if_neg (by simp), EReal.inv_top]
  | coe r =>
    have hr : 0 < r := by exact_mod_cast hv
    have hs : Real.sqrt r ≠ 0 := (Real.sqrt_pos.mpr hr).ne'
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le), Ideal.div,
      if_neg (by exact_mod_cast hs), EReal.coe_inv]

/-- The square of an extended real is nonnegative. -/
theorem mul_self_nonneg (y : EReal) : 0 ≤ y * y := by
  rcases le_total 0 y with h | h
  · exact EReal.mul_nonneg h h
  · rw [← neg_mul_neg]
    exact EReal.mul_nonneg (EReal.neg_nonneg.mpr h) (EReal.neg_nonneg.mpr h)

/-- A sum of squares, started from zero, divided by 1024, plus the small constant, is positive. -/
theorem meanSq_add_eps_pos {ι : Type*} (s : Finset ι) (y : ι → EReal) :
    0 < Ideal.div (Ideal.ofBits .f32 0x00000000#32 + ∑ k ∈ s, y k * y k) (Ideal.ofBits .f32 0x44800000#32)
      + Ideal.ofBits .f32 0x358637BD#32 := by
  have hS : (0 : EReal) ≤ Ideal.ofBits .f32 0x00000000#32 + ∑ k ∈ s, y k * y k := by
    rw [Ideal.ofBits_zero_f32, zero_add]
    exact Finset.sum_nonneg fun k _ => mul_self_nonneg (y k)
  have hm : (0 : EReal) ≤ Ideal.div (Ideal.ofBits .f32 0x00000000#32 + ∑ k ∈ s, y k * y k) (Ideal.ofBits .f32 0x44800000#32) := by
    rw [ofBits_1024, Ideal.div_coe (by norm_num : (1024 : ℝ) ≠ 0)]
    exact EReal.mul_nonneg hS (by exact_mod_cast (by norm_num : (0 : ℝ) ≤ 1 / 1024))
  calc (0 : EReal) < Ideal.ofBits .f32 0x358637BD#32 := ofBits_eps_pos
    _ = 0 + Ideal.ofBits .f32 0x358637BD#32 := (zero_add _).symm
    _ ≤ _ := add_le_add hm le_rfl

end Cert.Scalar

end
-- ==== Proof.Point.lean ====
/-
  What one grid point computes, in the specification's terms.

  At the point with batch `b`, query tile `q` and head `h`, row `r` of the tile is position `256 q + r`. The blocks the body
  is handed are pieces of the argument arrays, so: the tile's query projection is the input's projection by `W_Q`
  restricted to head `h`'s features, likewise keys and values; the scaled scores are the specification's scores times
  one eighth, which is the specification's division by eight; the softmax of the masked scores is the specification's
  attention weight; and the head's contribution to the running sum is the specification's context of that head
  projected by the head's columns of `W_O`. The sixteen heads' contributions add up to the whole output projection,
  because the 1024 features are the sixteen heads' 64 features each. After the last head the normalisation is the
  specification's: multiplying by a reciprocal square root of a positive number is dividing by its square root.
-/
import proofs.«161823_j12627203850645_2_alg».proof.Proof.Blocks
import proofs.«161823_j12627203850645_2_alg».proof.Proof.Accum
import proofs.«161823_j12627203850645_2_alg».proof.Proof.Payload
import proofs.«161823_j12627203850645_2_alg».proof.Proof.Spec
import proofs.«161823_j12627203850645_2_alg».proof.Proof.Scalar

set_option maxRecDepth 16384

noncomputable section

namespace Cert.Attn.Point

open Idealize.ShloMosaic Idealize.ShloMosaic.TcCoe Idealize.ShloMosaic.ValueIdx Idealize.SL.Sem
open Cert.KernelIdeal Cert.KernelIdeal.Gen Cert.Attn Cert.Attn.Pieces Cert.Attn.Payload Cert.Attn.Accum Cert.Attn.Blocks

variable (m : (ℓ : Loc nD τ sig) → Buf (Elt Ideal) ℓ) (c : Dev nD)

/-- The argument arrays as launched, on core `c`. -/
abbrev a0 : (⟨3, ![8, 1024, 1024]⟩ : Shape).Idx → EReal := m ((c : Thread nD τ).loc main_arg0)
abbrev a1 : (⟨4, ![8, 1, 1024, 1024]⟩ : Shape).Idx → BitVec 32 := m ((c : Thread nD τ).loc main_arg1)
abbrev a2 : (⟨2, ![1024, 1024]⟩ : Shape).Idx → EReal := m ((c : Thread nD τ).loc main_arg2)
abbrev a3 : (⟨2, ![1024, 1024]⟩ : Shape).Idx → EReal := m ((c : Thread nD τ).loc main_arg3)
abbrev a4 : (⟨2, ![1024, 1024]⟩ : Shape).Idx → EReal := m ((c : Thread nD τ).loc main_arg4)
abbrev a5 : (⟨2, ![1024, 1024]⟩ : Shape).Idx → EReal := m ((c : Thread nD τ).loc main_arg5)
abbrev a6 : (⟨1, ![1024]⟩ : Shape).Idx → EReal := m ((c : Thread nD τ).loc main_arg6)
abbrev a7 : (⟨1, ![1024]⟩ : Shape).Idx → EReal := m ((c : Thread nD τ).loc main_arg7)

/-! ## The sixteen heads' features are the 1024 features -/

theorem headOf_hd (h : Fin 16) (d : Fin 64) : Spec.headOf (Spec.hd h d) = h :=
  Fin.ext (by show (h.val * 64 + d.val) / 64 = h.val; have := d.isLt; omega)

theorem featOf_hd (h : Fin 16) (d : Fin 64) : Spec.featOf (Spec.hd h d) = d :=
  Fin.ext (by show (h.val * 64 + d.val) % 64 = d.val; have := d.isLt; omega)

/-- A sum over the 1024 features is the sum over the heads of the sums over each head's features. -/
theorem sum_heads {M : Type*} [AddCommMonoid M] (f : Fin 1024 → M) :
    ∑ j : Fin 1024, f j = ∑ h : Fin 16, ∑ d : Fin 64, f (Spec.hd h d) := by
  rw [← Fintype.sum_prod_type' (fun (h : Fin 16) (d : Fin 64) => f (Spec.hd h d))]
  refine (Fintype.sum_equiv (finProdFinEquiv : Fin 16 × Fin 64 ≃ Fin (16 * 64)) (fun p => f (Spec.hd p.1 p.2)) f fun p => ?_).symm
  congr 1
  apply Fin.ext
  show p.1.val * 64 + p.2.val = p.2.val + 64 * p.1.val
  omega

/-! ## Projections, scores and attention weights at a grid point -/

theorem qB_eq (t : Fin cfg0.N) (r : Fin 256) (d : Fin 64) :
    qB (tile (grid0.coords t) (iblk m c 0 t)) (wsl (grid0.coords t) (iblk m c 2 t)) r d = Spec.proj (a0 m c) (a2 m c) (bOf t) (rowOf (qOf t) r) (Spec.hd (hOf t) d) := by
  unfold qB Spec.proj
  exact Finset.sum_congr rfl fun i _ => congrArg₂ (· * ·) (tile_apply m c t 0 r i) (wq_apply m c t 0 i d)

theorem kB_eq (t : Fin cfg0.N) (k : Fin 1024) (d : Fin 64) :
    pB (iblk m c 0 t) (wsl (grid0.coords t) (iblk m c 3 t)) k d = Spec.proj (a0 m c) (a3 m c) (bOf t) k (Spec.hd (hOf t) d) := by
  unfold pB Spec.proj
  exact Finset.sum_congr rfl fun i _ => congrArg₂ (· * ·) (enc_apply m c t 0 k i) (wk_apply m c t 0 i d)

theorem vB_eq (t : Fin cfg0.N) (k : Fin 1024) (d : Fin 64) :
    pB (iblk m c 0 t) (wsl (grid0.coords t) (iblk m c 4 t)) k d = Spec.proj (a0 m c) (a4 m c) (bOf t) k (Spec.hd (hOf t) d) := by
  unfold pB Spec.proj
  exact Finset.sum_congr rfl fun i _ => congrArg₂ (· * ·) (enc_apply m c t 0 k i) (wv_apply m c t 0 i d)

theorem scores_eq (t : Fin cfg0.N) (r : Fin 256) (k : Fin 1024) :
    scoresT m c t (ix2 r k)
      = Spec.score (a0 m c) (a2 m c) (a3 m c) (bOf t) (hOf t) (rowOf (qOf t) r) k * Ideal.ofBits .f32 0x3E000000#32 := by
  refine (pay10_apply (tile (grid0.coords t) (iblk m c 0 t)) (iblk m c 0 t) (wsl (grid0.coords t) (iblk m c 2 t)) (wsl (grid0.coords t) (iblk m c 3 t)) r k).trans ?_
  unfold scoreB Spec.score
  exact congrArg (· * Ideal.ofBits .f32 0x3E000000#32)
    (Finset.sum_congr rfl fun d _ => congrArg₂ (· * ·) (qB_eq m c t r d) (kB_eq m c t k d))

theorem logit_eq (t : Fin cfg0.N) (r : Fin 256) (k : Fin 1024) :
    logitB (scoresT m c t) (iblk m c 1 t) r k = Spec.logit (a0 m c) (a1 m c) (a2 m c) (a3 m c) (bOf t) (hOf t) (rowOf (qOf t) r) k := by
  unfold logitB Spec.logit
  exact congrArg₂ (fun z s => Scalar.select (IntOp.cmpi .eq z 0#32) Spec.fill s) (mask_apply m c t 0 0 r k)
    ((scores_eq m c t r k).trans (Scalar.mul_eighth _))

theorem attnB_eq (t : Fin cfg0.N) (r : Fin 256) (k : Fin 1024) :
    attnB (scoresT m c t) (iblk m c 1 t) r k = Spec.attn (a0 m c) (a1 m c) (a2 m c) (a3 m c) (bOf t) (hOf t) (rowOf (qOf t) r) k := by
  unfold attnB rowMaxB Spec.attn Spec.denom Spec.expo Spec.rowMax
  simp only [logit_eq m c t r, Spec.zero, Ideal.ofBits_zero_f32, zero_add]

/-- The block of attention weights grid point `t` writes, at an entry. -/
theorem attn_block (t : Fin cfg0.N) (u v : Fin 1) (r : Fin 256) (k : Fin 1024) :
    k0_pay2 (scoresT m c t) (iblk m c 1 t) (ix4 u v r k)
      = Spec.attnArr (a0 m c) (a1 m c) (a2 m c) (a3 m c) (ix4 (bOf t) (hOf t) (rowOf (qOf t) r) k) :=
  (pay2_apply (scoresT m c t) (iblk m c 1 t) u v r k).trans (attnB_eq m c t r k)

/-! ## The running sum over the heads -/

theorem contrib_eq (t : Fin cfg0.N) (r : Fin 256) (o : Fin 1024) :
    contrib m c t (ix2 r o)
      = ∑ d : Fin 64, Spec.ctx (a0 m c) (a1 m c) (a2 m c) (a3 m c) (a4 m c) (bOf t) (hOf t) (rowOf (qOf t) r) d * a5 m c (ix2 o (Spec.hd (hOf t) d)) := by
  unfold contrib Spec.ctx
  refine Finset.sum_congr rfl fun d _ => congrArg₂ (· * ·)
    (Finset.sum_congr rfl fun k _ => congrArg₂ (· * ·) (attnB_eq m c t r k) ?_) ?_
  · exact (pay9_apply (iblk m c 0 t) (wsl (grid0.coords t) (iblk m c 4 t)) k d).trans (vB_eq m c t k d)
  · exact (pay8_apply (wosl (grid0.coords t) (iblk m c 5 t)) d o).trans (wo_apply m c t 0 d o)

theorem addend_eq (t : Fin cfg0.N) (s' : Fin 16) (r : Fin 256) (o : Fin 1024) :
    addend m c (16 * (t.val / 16) + s'.val) (ix2 r o)
      = ∑ d : Fin 64, Spec.ctx (a0 m c) (a1 m c) (a2 m c) (a3 m c) (a4 m c) (bOf t) s' (rowOf (qOf t) r) d * a5 m c (ix2 o (Spec.hd s' d)) := by
  have hN : t.val < 512 := lt_of_lt_of_eq t.isLt (show cfg0.N = 512 from N_0)
  have hs : s'.val < 16 := s'.isLt
  have hn : 16 * (t.val / 16) + s'.val < cfg0.N := lt_of_lt_of_eq (by omega) (show cfg0.N = 512 from N_0).symm
  have hb : bOf ⟨_, hn⟩ = bOf t := Fin.ext (by show (16 * (t.val / 16) + s'.val) / 64 = t.val / 64; omega)
  have hq : qOf ⟨_, hn⟩ = qOf t := Fin.ext (by show (16 * (t.val / 16) + s'.val) / 16 % 4 = t.val / 16 % 4; omega)
  have hh : hOf ⟨_, hn⟩ = s' := Fin.ext (by show (16 * (t.val / 16) + s'.val) % 16 = s'.val; omega)
  unfold addend
  rw [dif_pos hn, contrib_eq, hb, hq, hh]

/-- After the last head the running sum is the whole output projection. -/
theorem acc_last (t : Fin cfg0.N) (h15 : t.val % 16 = 15) (r : Fin 256) (o : Fin 1024) :
    (outsAt0 m c t.val t.isLt).2.2 (ix2 r o) = Spec.oproj (a0 m c) (a1 m c) (a2 m c) (a3 m c) (a4 m c) (a5 m c) (bOf t) (rowOf (qOf t) r) o := by
  rw [scratch_apply m c t (ix2 r o), h15]
  show Ideal.ofBits .f32 0x00000000#32 + _ = _
  rw [Ideal.ofBits_zero_f32, zero_add, Finset.sum_range (fun s => addend m c (16 * (t.val / 16) + s) (ix2 r o))]
  unfold Spec.oproj
  rw [sum_heads]
  refine Finset.sum_congr rfl fun h' _ => (addend_eq m c t h' r o).trans ?_
  refine Finset.sum_congr rfl fun d _ => ?_
  rw [headOf_hd, featOf_hd]

/-! ## The normalised rows after the last head -/

theorem var_pos (b : Fin 8) (s : Fin 1024) : 0 < Spec.var (a0 m c) (a1 m c) (a2 m c) (a3 m c) (a4 m c) (a5 m c) b s + Spec.eps := by
  unfold Spec.var
  exact Scalar.meanSq_add_eps_pos Finset.univ (fun o => Spec.cent (a0 m c) (a1 m c) (a2 m c) (a3 m c) (a4 m c) (a5 m c) b s o)

/-- The block of the layer output the last head's grid point `t` writes, at an entry. -/
theorem normed_block (t : Fin cfg0.N) (h15 : t.val % 16 = 15) (u : Fin 1) (r : Fin 256) (o : Fin 1024) :
    k0_pay4 (k0_pay6 (tile (grid0.coords t) (iblk m c 0 t))) ((outsAt0 m c t.val t.isLt).2.2) (iblk m c 6 t) (iblk m c 7 t) (ix3 u r o)
      = Spec.outArr (a0 m c) (a1 m c) (a2 m c) (a3 m c) (a4 m c) (a5 m c) (a6 m c) (a7 m c) (ix3 (bOf t) (rowOf (qOf t) r) o) := by
  refine (pay4_apply (k0_pay6 (tile (grid0.coords t) (iblk m c 0 t))) ((outsAt0 m c t.val t.isLt).2.2) (iblk m c 6 t) (iblk m c 7 t) u r o).trans ?_
  have hres : ∀ o' : Fin 1024, residB (k0_pay6 (tile (grid0.coords t) (iblk m c 0 t))) ((outsAt0 m c t.val t.isLt).2.2) r o'
      = Spec.resid (a0 m c) (a1 m c) (a2 m c) (a3 m c) (a4 m c) (a5 m c) (bOf t) (rowOf (qOf t) r) o' := fun o' =>
    congrArg₂ (· + ·) (acc_last m c t h15 r o') ((pay6_apply (tile (grid0.coords t) (iblk m c 0 t)) r o').trans (tile_apply m c t 0 r o'))
  have hmean : meanB (k0_pay6 (tile (grid0.coords t) (iblk m c 0 t))) ((outsAt0 m c t.val t.isLt).2.2) r = Spec.mean (a0 m c) (a1 m c) (a2 m c) (a3 m c) (a4 m c) (a5 m c) (bOf t) (rowOf (qOf t) r) := by
    unfold meanB Spec.mean
    simp only [hres, Spec.zero, Ideal.ofBits_zero_f32, zero_add]
  have hcent : ∀ o' : Fin 1024, centB (k0_pay6 (tile (grid0.coords t) (iblk m c 0 t))) ((outsAt0 m c t.val t.isLt).2.2) r o'
      = Spec.cent (a0 m c) (a1 m c) (a2 m c) (a3 m c) (a4 m c) (a5 m c) (bOf t) (rowOf (qOf t) r) o' := fun o' => congrArg₂ (· - ·) (hres o') hmean
  have hvar : varB (k0_pay6 (tile (grid0.coords t) (iblk m c 0 t))) ((outsAt0 m c t.val t.isLt).2.2) r = Spec.var (a0 m c) (a1 m c) (a2 m c) (a3 m c) (a4 m c) (a5 m c) (bOf t) (rowOf (qOf t) r) := by
    unfold varB Spec.var
    simp only [hcent, Spec.zero, Ideal.ofBits_zero_f32, zero_add]
  show _ = Spec.normed (a0 m c) (a1 m c) (a2 m c) (a3 m c) (a4 m c) (a5 m c) (a6 m c) (a7 m c) (bOf t) (rowOf (qOf t) r) o
  unfold Spec.normed
  rw [← Scalar.mul_rsqrt _ _ (var_pos m c (bOf t) (rowOf (qOf t) r))]
  exact congrArg₂ (· + ·) (congrArg₂ (· * ·) (congrArg₂ (· * ·) (hcent o)
    (congrArg (fun z => Ideal.rsqrt (z + Spec.eps)) hvar)) (gamma_apply m c t o)) (beta_apply m c t o)

end Cert.Attn.Point

end
-- ==== Proof.Final.lean ====
/-
  From the blocks the grid points write to the two result arrays.

  The attention weights: every grid point writes one block — batch `b`, head `h`, the tile's 256 rows, all 1024
  columns — and these blocks tile the array. The layer output: only a batch and tile's last head writes, one block of
  256 rows by 1024 columns, and these tile the array too. What each writing point writes is that block of the
  specification's array, so the arrays end holding the specification's arrays.
-/
import proofs.«161823_j12627203850645_2_alg».proof.Proof.Point
import proofs.«161823_j12627203850645_2_alg».proof.Proof.Accum
import proofs.«161823_j12627203850645_2_alg».proof.Proof.Spec
import Idealize.ShloMosaic.Lib.Pipeline.Value

set_option maxRecDepth 16384

noncomputable section

namespace Cert.Attn.Final

open Idealize.ShloMosaic Idealize.ShloMosaic.TcCoe Idealize.ShloMosaic.ValueIdx Idealize.SL.Sem
open Idealize.ShloMosaic.Pipeline (Dat)
open Cert.KernelIdeal Cert.KernelIdeal.Gen Cert.Attn Cert.Attn.Pieces Cert.Attn.Payload Cert.Attn.Accum

variable (m : (ℓ : Loc nD τ sig) → Buf (Elt Ideal) ℓ) (ρ : Dev nD → PrngReg) (c : Dev nD)

/-! ## Where the two outputs' blocks sit -/

/-- The attention weights' block at grid point `t`: batch, head, tile, all columns. -/
theorem idx9 : ∀ t : Fin cfg0.N, win0_9.index t (0 : Fin 4) = t.val / 64 ∧ win0_9.index t (1 : Fin 4) = t.val % 16
    ∧ win0_9.index t (2 : Fin 4) = t.val / 16 % 4 ∧ win0_9.index t (3 : Fin 4) = 0 :=
  (by decide +kernel : ∀ t : Fin grid0.N, _)

/-- The layer output's block at grid point `t`: batch, tile, all columns. -/
theorem idx8 : ∀ t : Fin cfg0.N, win0_8.index t (0 : Fin 3) = t.val / 64 ∧ win0_8.index t (1 : Fin 3) = t.val / 16 % 4
    ∧ win0_8.index t (2 : Fin 3) = 0 :=
  (by decide +kernel : ∀ t : Fin grid0.N, _)

theorem mem_blk9 (t : Fin cfg0.N) (i : S8x16x1024x1024.Idx) :
    i ∈ ((cfg0.win 9).blk t).view.set ↔ ∀ a : Fin 4, win0_9.index t a * S1x1x256x1024.size a ≤ (i a).val
      ∧ (i a).val < win0_9.index t a * S1x1x256x1024.size a + S1x1x256x1024.size a := by
  show i ∈ ((View.whole main_v12_1).slice (win0_9.rect t)).set ↔ _
  rw [View.set_slice_whole, Rect.mem_set_unit]
  exact Iff.rfl

theorem mem_blk8 (t : Fin cfg0.N) (i : S8x1024x1024.Idx) :
    i ∈ ((cfg0.win 8).blk t).view.set ↔ ∀ a : Fin 3, win0_8.index t a * S1x256x1024.size a ≤ (i a).val
      ∧ (i a).val < win0_8.index t a * S1x256x1024.size a + S1x256x1024.size a := by
  show i ∈ ((View.whole main_v12_0).slice (win0_8.rect t)).set ↔ _
  rw [View.set_slice_whole, Rect.mem_set_unit]
  exact Iff.rfl

/-! ## The attention weights -/

/-- What every grid point writes back to the attention weights: the softmax of its tile's masked scores. -/
theorem flushed9_val (t : Fin cfg0.N) :
    (dats m 0 c).flushed 9 t = (cfg0.win 9).cut (grid0.coords t) (k0_pay2 (scoresT m c t) (iblk m c 1 t)) := by
  have hN : t.val < 512 := lt_of_lt_of_eq t.isLt (show cfg0.N = 512 from N_0)
  by_cases h0 : t.val % 16 = 0
  · have h1 : ¬t.val % 16 = 15 := by omega
    rw [Cert.KernelIdeal.Value.flushed9_A m c t h0 h1]
    exact congrArg ((cfg0.win 9).cut (grid0.coords t)) (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ _ (iblk m c 0 t) (iblk m c 1 t) (iblk m c 2 t) (iblk m c 3 t) (iblk m c 4 t) (iblk m c 5 t) (iblk m c 6 t) (iblk m c 7 t))
  · by_cases h1 : t.val % 16 = 15
    · rw [Cert.KernelIdeal.Value.flushed9_C m c t h0 h1]
      exact congrArg ((cfg0.win 9).cut (grid0.coords t)) (out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ _ (iblk m c 0 t) (iblk m c 1 t) (iblk m c 2 t) (iblk m c 3 t) (iblk m c 4 t) (iblk m c 5 t) (iblk m c 6 t) (iblk m c 7 t) _)
    · rw [Cert.KernelIdeal.Value.flushed9_B m c t h0 h1]
      exact congrArg ((cfg0.win 9).cut (grid0.coords t)) (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ _ (iblk m c 0 t) (iblk m c 1 t) (iblk m c 2 t) (iblk m c 3 t) (iblk m c 4 t) (iblk m c 5 t) (iblk m c 6 t) (iblk m c 7 t) _)

/-- … which is that block of the specification's attention weights. -/
theorem flushed9_eq (t : Fin cfg0.N) :
    (dats m 0 c).flushed 9 t = ((cfg0.win 9).blk t).view.read (Elt Ideal) (Spec.attnArr (Point.a0 m c) (Point.a1 m c) (Point.a2 m c) (Point.a3 m c)) := by
  rw [flushed9_val]
  funext y
  obtain ⟨u, v, r, k, rfl⟩ : ∃ (u v : Fin 1) (r : Fin 256) (k : Fin 1024), y = ix4 u v r k := ⟨y 0, y 1, y 2, y 3, eq_ix4 y⟩
  show k0_pay2 (scoresT m c t) (iblk m c 1 t) (ix4 u v r k) = (Spec.attnArr (Point.a0 m c) (Point.a1 m c) (Point.a2 m c) (Point.a3 m c)) (((cfg0.win 9).blk t).view.emb (ix4 u v r k))
  rw [Point.attn_block m c t u v r k]
  congr 1
  obtain ⟨e0, e1, e2, e3⟩ := idx9 t
  funext a; apply Fin.ext
  match a with
  | ⟨0, _⟩ => show t.val / 64 = win0_9.index t (0 : Fin 4) * 1 + 1 * u.val; have := u.isLt; omega
  | ⟨1, _⟩ => show t.val % 16 = win0_9.index t (1 : Fin 4) * 1 + 1 * v.val; have := v.isLt; omega
  | ⟨2, _⟩ => show 256 * (t.val / 16 % 4) + r.val = win0_9.index t (2 : Fin 4) * 256 + 1 * r.val; omega
  | ⟨3, _⟩ => show k.val = win0_9.index t (3 : Fin 4) * 1024 + 1 * k.val; omega

/-- Every entry of the attention weights lies in some grid point's block. -/
theorem cover9 (i : S8x16x1024x1024.Idx) :
    ∃ t : Fin cfg0.N, (cfg0.win 9).flush t = true ∧ i ∈ ((cfg0.win 9).blk t).view.set := by
  have h0 : (i 0).val < 8 := (i 0).isLt
  have h1 : (i 1).val < 16 := (i 1).isLt
  have h2 : (i 2).val < 1024 := (i 2).isLt
  have h3 : (i 3).val < 1024 := (i 3).isLt
  have hb : ((i 0).val * 4 + (i 2).val / 256) * 16 + (i 1).val < cfg0.N := by rw [show cfg0.N = 512 from N_0]; omega
  refine ⟨⟨_, hb⟩, flush0_9 _, ?_⟩
  rw [mem_blk9]
  have e : win0_9.index ⟨_, hb⟩ (0 : Fin 4) = (((i 0).val * 4 + (i 2).val / 256) * 16 + (i 1).val) / 64
      ∧ win0_9.index ⟨_, hb⟩ (1 : Fin 4) = (((i 0).val * 4 + (i 2).val / 256) * 16 + (i 1).val) % 16
      ∧ win0_9.index ⟨_, hb⟩ (2 : Fin 4) = (((i 0).val * 4 + (i 2).val / 256) * 16 + (i 1).val) / 16 % 4
      ∧ win0_9.index ⟨_, hb⟩ (3 : Fin 4) = 0 := idx9 ⟨_, hb⟩
  obtain ⟨e0, e1, e2, e3⟩ := e
  intro a
  match a with
  | ⟨0, _⟩ => show win0_9.index ⟨_, hb⟩ (0 : Fin 4) * 1 ≤ (i 0).val ∧ (i 0).val < win0_9.index ⟨_, hb⟩ (0 : Fin 4) * 1 + 1; omega
  | ⟨1, _⟩ => show win0_9.index ⟨_, hb⟩ (1 : Fin 4) * 1 ≤ (i 1).val ∧ (i 1).val < win0_9.index ⟨_, hb⟩ (1 : Fin 4) * 1 + 1; omega
  | ⟨2, _⟩ => show win0_9.index ⟨_, hb⟩ (2 : Fin 4) * 256 ≤ (i 2).val ∧ (i 2).val < win0_9.index ⟨_, hb⟩ (2 : Fin 4) * 256 + 256; omega
  | ⟨3, _⟩ => show win0_9.index ⟨_, hb⟩ (3 : Fin 4) * 1024 ≤ (i 3).val ∧ (i 3).val < win0_9.index ⟨_, hb⟩ (3 : Fin 4) * 1024 + 1024; omega

/-- The attention weights after the run. -/
theorem final9 : (dats m 0 c).arrAt 9 cfg0.N = (Spec.attnArr (Point.a0 m c) (Point.a1 m c) (Point.a2 m c) (Point.a3 m c)) :=
  (dats m 0 c).arrAt_eq_of_cover 9 (Spec.attnArr (Point.a0 m c) (Point.a1 m c) (Point.a2 m c) (Point.a3 m c)) (fun t _ => flushed9_eq m c t) (cover9)

/-! ## The layer output -/

/-- What a last head's grid point writes back to the layer output: the normalised rows of the finished running sum
    plus the query tile. -/
theorem flushed8_val (t : Fin cfg0.N) (h15 : t.val % 16 = 15) :
    (dats m 0 c).flushed 8 t = (cfg0.win 8).cut (grid0.coords t)
      (k0_pay4 (k0_pay6 (tile (grid0.coords t) (iblk m c 0 t))) ((outsAt0 m c t.val t.isLt).2.2) (iblk m c 6 t) (iblk m c 7 t)) := by
  have h0 : ¬t.val % 16 = 0 := by omega
  have e : (outsAt0 m c t.val t.isLt).2.2
      = step (grid0.coords t) (iblk m c 0 t) (iblk m c 1 t) (iblk m c 2 t) (iblk m c 3 t) (iblk m c 4 t) (iblk m c 5 t)
          ((outsAt0 m c (t.val - 1) (Nat.lt_of_le_of_lt (Nat.sub_le _ _) t.isLt)).2.2) :=
    (congrArg (fun x => x.2.2) (outsAt0_C m c t h0 h15)).trans
      (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) _)
  rw [Cert.KernelIdeal.Value.flushed8_C m c t h0 h15, e]
  exact congrArg ((cfg0.win 8).cut (grid0.coords t)) (out8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) _)

/-- … which is that block of the specification's layer output. -/
theorem flushed8_eq (t : Fin cfg0.N) (hf : (cfg0.win 8).flush t = true) :
    (dats m 0 c).flushed 8 t = ((cfg0.win 8).blk t).view.read (Elt Ideal) (Spec.outArr (Point.a0 m c) (Point.a1 m c) (Point.a2 m c) (Point.a3 m c) (Point.a4 m c) (Point.a5 m c) (Point.a6 m c) (Point.a7 m c)) := by
  have h15 : t.val % 16 = 15 := (flush0_8 t).mp hf
  rw [flushed8_val m c t h15]
  funext y
  obtain ⟨u, r, o, rfl⟩ : ∃ (u : Fin 1) (r : Fin 256) (o : Fin 1024), y = ix3 u r o := ⟨y 0, y 1, y 2, eq_ix3 y⟩
  show k0_pay4 (k0_pay6 (tile (grid0.coords t) (iblk m c 0 t))) ((outsAt0 m c t.val t.isLt).2.2) (iblk m c 6 t) (iblk m c 7 t) (ix3 u r o)
    = (Spec.outArr (Point.a0 m c) (Point.a1 m c) (Point.a2 m c) (Point.a3 m c) (Point.a4 m c) (Point.a5 m c) (Point.a6 m c) (Point.a7 m c)) (((cfg0.win 8).blk t).view.emb (ix3 u r o))
  rw [Point.normed_block m c t h15 u r o]
  congr 1
  obtain ⟨e0, e1, e2⟩ := idx8 t
  funext a; apply Fin.ext
  match a with
  | ⟨0, _⟩ => show t.val / 64 = win0_8.index t (0 : Fin 3) * 1 + 1 * u.val; have := u.isLt; omega
  | ⟨1, _⟩ => show 256 * (t.val / 16 % 4) + r.val = win0_8.index t (1 : Fin 3) * 256 + 1 * r.val; omega
  | ⟨2, _⟩ => show o.val = win0_8.index t (2 : Fin 3) * 1024 + 1 * o.val; omega

/-- Every entry of the layer output lies in the block of some batch and tile's last head. -/
theorem cover8 (i : S8x1024x1024.Idx) :
    ∃ t : Fin cfg0.N, (cfg0.win 8).flush t = true ∧ i ∈ ((cfg0.win 8).blk t).view.set := by
  have h0 : (i 0).val < 8 := (i 0).isLt
  have h1 : (i 1).val < 1024 := (i 1).isLt
  have h2 : (i 2).val < 1024 := (i 2).isLt
  have hb : ((i 0).val * 4 + (i 1).val / 256) * 16 + 15 < cfg0.N := by rw [show cfg0.N = 512 from N_0]; omega
  refine ⟨⟨_, hb⟩, (flush0_8 _).mpr (by show (((i 0).val * 4 + (i 1).val / 256) * 16 + 15) % 16 = 15; omega), ?_⟩
  rw [mem_blk8]
  have e : win0_8.index ⟨_, hb⟩ (0 : Fin 3) = (((i 0).val * 4 + (i 1).val / 256) * 16 + 15) / 64
      ∧ win0_8.index ⟨_, hb⟩ (1 : Fin 3) = (((i 0).val * 4 + (i 1).val / 256) * 16 + 15) / 16 % 4
      ∧ win0_8.index ⟨_, hb⟩ (2 : Fin 3) = 0 := idx8 ⟨_, hb⟩
  obtain ⟨e0, e1, e2⟩ := e
  intro a
  match a with
  | ⟨0, _⟩ => show win0_8.index ⟨_, hb⟩ (0 : Fin 3) * 1 ≤ (i 0).val ∧ (i 0).val < win0_8.index ⟨_, hb⟩ (0 : Fin 3) * 1 + 1; omega
  | ⟨1, _⟩ => show win0_8.index ⟨_, hb⟩ (1 : Fin 3) * 256 ≤ (i 1).val ∧ (i 1).val < win0_8.index ⟨_, hb⟩ (1 : Fin 3) * 256 + 256; omega
  | ⟨2, _⟩ => show win0_8.index ⟨_, hb⟩ (2 : Fin 3) * 1024 ≤ (i 2).val ∧ (i 2).val < win0_8.index ⟨_, hb⟩ (2 : Fin 3) * 1024 + 1024; omega

/-- The layer output after the run. -/
theorem final8 : (dats m 0 c).arrAt 8 cfg0.N = (Spec.outArr (Point.a0 m c) (Point.a1 m c) (Point.a2 m c) (Point.a3 m c) (Point.a4 m c) (Point.a5 m c) (Point.a6 m c) (Point.a7 m c)) :=
  (dats m 0 c).arrAt_eq_of_cover 8 (Spec.outArr (Point.a0 m c) (Point.a1 m c) (Point.a2 m c) (Point.a3 m c) (Point.a4 m c) (Point.a5 m c) (Point.a6 m c) (Point.a7 m c)) (flushed8_eq m c) (cover8)

/-! ## The run, read -/

/-- Every weakly fair execution of the idealized kernel terminates with the two result arrays at the specification's
    arrays of the argument arrays, the arguments unchanged. -/
theorem run : θ_run defs (onTc (τ := τ) (main (F := Ideal))) ⟨m, fun _ => 0, ρ⟩ fun r => ∀ c : Dev nD,
      r.2.mem ((c : Thread nD τ).loc main_v12_0) = (Spec.outArr (Point.a0 m c) (Point.a1 m c) (Point.a2 m c) (Point.a3 m c) (Point.a4 m c) (Point.a5 m c) (Point.a6 m c) (Point.a7 m c))
      ∧ r.2.mem ((c : Thread nD τ).loc main_v12_1) = (Spec.attnArr (Point.a0 m c) (Point.a1 m c) (Point.a2 m c) (Point.a3 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Cert.KernelIdeal.Value.run_blocks m ρ)

end Cert.Attn.Final

end
-- ==== Proof.RefSpec.lean ====
/-
  The reference program computes the specification.

  Each stage of the reference, read at an index given by its coordinates, is the specification's function of the same
  name: the three projections and their split into heads, the scores, the masked and scaled scores, a row's maximum, the
  exponentials, their sum and the attention weights; then the context of every head, the concatenation of the heads, the
  output projection, the residual sum, and the layer normalisation (mean, centred entry, mean square, scaled and shifted
  quotient).

  The arithmetic is the same term by term on both sides. The one difference is that the reference takes the maximum of
  −∞ with a row's maximum, which is already folded from −∞: a maximum folded from a start value lies above it.
-/
import proofs.«161823_j12627203850645_2_alg».proof.Proof.Gen.ReferenceIdeal.Read
import proofs.«161823_j12627203850645_2_alg».proof.Proof.Spec
import proofs.«161823_j12627203850645_2_alg».proof.Proof.Scalar
import Idealize.ShloMosaic.Lib.ValueIdx
import Idealize.ShloMosaic.Lib.Pipeline.Value
import Idealize.ShloMosaic.PureOps.Ideal.Laws

noncomputable section

namespace Cert.Attn.Ref

open Cert.ReferenceIdeal Cert.ReferenceIdeal.Gen Cert.ReferenceIdeal.Read Cert.Attn.Spec
open Idealize.ShloMosaic Idealize.ShloMosaic.ValueIdx

variable (x0 : (⟨S8x1024x1024, .f32⟩ : BufTy).Contents (Elt Ideal))
  (x1 : (⟨S8x1x1024x1024, .i32⟩ : BufTy).Contents (Elt Ideal))
  (x2 x3 x4 x5 : (⟨S1024x1024, .f32⟩ : BufTy).Contents (Elt Ideal))
  (x6 x7 : (⟨S1024, .f32⟩ : BufTy).Contents (Elt Ideal))

/-! ## The projections and their heads -/

/-- In a projection, the left factor of term `k` of entry (b, s, o) is the input at (b, s, k). -/
theorem lidx_proj (b : Fin 8) (s o k : Fin 1024) : lidx_main_v0 (ix3 b s o) k = ix3 b s k :=
  funext fun a => Fin.ext (by match a with | ⟨0, _⟩ => rfl | ⟨1, _⟩ => rfl | ⟨2, _⟩ => rfl)

/-- In a projection, the right factor of term `k` of entry (b, s, o) is the weight at (o, k). -/
theorem ridx_proj (b : Fin 8) (s o k : Fin 1024) : ridx_main_v0 (ix3 b s o) k = ix2 o k :=
  funext fun a => Fin.ext (by match a with | ⟨0, _⟩ => rfl | ⟨1, _⟩ => rfl)

/-- A projection of the input by a weight matrix `W`, at (b, s, o). -/
theorem proj_at (W : (⟨S1024x1024, .f32⟩ : BufTy).Contents (Elt Ideal)) (b : Fin 8) (s o : Fin 1024) :
    val_main_v0 (F := Ideal) x0 W (ix3 b s o) = proj x0 W b s o := by
  rw [val_main_v0_apply]
  unfold proj
  refine Finset.sum_congr rfl fun k _ => ?_
  rw [lidx_proj, ridx_proj]

/-- Splitting the 1024 features into 16 heads of 64 and moving the head axis forward: entry (b, h, s, d) of the result
    is entry (b, s, 64h + d) of the operand. -/
theorem split_idx (b : Fin 8) (h : Fin 16) (s : Fin 1024) (d : Fin 64) :
    idx_main_v1 (idx_main_v2 (ix4 b h s d)) = ix3 b s (hd h d) :=
  funext fun a => Fin.ext (by
    have hb := b.isLt; have hh := h.isLt; have hs := s.isLt; have hd' := d.isLt
    match a with
    | ⟨0, _⟩ => show (((b.val * 1024 + s.val) * 16 + h.val) * 64 + d.val) / 1048576 = b.val; omega
    | ⟨1, _⟩ => show (((b.val * 1024 + s.val) * 16 + h.val) * 64 + d.val) / 1024 % 1024 = s.val; omega
    | ⟨2, _⟩ => show (((b.val * 1024 + s.val) * 16 + h.val) * 64 + d.val) % 1024 = h.val * 64 + d.val; omega)

/-- A projection split into heads, at (b, h, s, d). -/
theorem heads_at (W : (⟨S1024x1024, .f32⟩ : BufTy).Contents (Elt Ideal)) (b : Fin 8) (h : Fin 16) (s : Fin 1024)
    (d : Fin 64) : val_main_v2 (F := Ideal) x0 W (ix4 b h s d) = proj x0 W b s (hd h d) := by
  rw [val_main_v2_apply, val_main_v1_apply, split_idx, proj_at]

/-! ## The scores -/

theorem lidx_score (b : Fin 8) (h : Fin 16) (q k : Fin 1024) (d : Fin 64) :
    lidx_main_v9 (ix4 b h q k) d = ix4 b h q d :=
  funext fun a => Fin.ext (by match a with | ⟨0, _⟩ => rfl | ⟨1, _⟩ => rfl | ⟨2, _⟩ => rfl | ⟨3, _⟩ => rfl)

theorem ridx_score (b : Fin 8) (h : Fin 16) (q k : Fin 1024) (d : Fin 64) :
    ridx_main_v9 (ix4 b h q k) d = ix4 b h k d :=
  funext fun a => Fin.ext (by match a with | ⟨0, _⟩ => rfl | ⟨1, _⟩ => rfl | ⟨2, _⟩ => rfl | ⟨3, _⟩ => rfl)

/-- The raw score of query `q` against key `k` in head `h`. -/
theorem score_at (b : Fin 8) (h : Fin 16) (q k : Fin 1024) :
    val_main_v9 (F := Ideal) x0 x2 x3 (ix4 b h q k) = score x0 x2 x3 b h q k := by
  rw [val_main_v9_apply]
  unfold score
  refine Finset.sum_congr rfl fun d _ => ?_
  rw [lidx_score, ridx_score, heads_at,
    show val_main_v5 (F := Ideal) x0 x3 = val_main_v2 (F := Ideal) x0 x3 from rfl, heads_at]

/-! ## The masked and scaled scores -/

/-- The mask is shared by the heads: entry (b, h, q, k) reads the mask at (b, 0, q, k). -/
theorem idx_mask (b : Fin 8) (h : Fin 16) (q k : Fin 1024) :
    idx_main_call0_v0 (ix4 b h q k) = ix4 b (0 : Fin 1) q k :=
  funext fun a => Fin.ext (by match a with | ⟨0, _⟩ => rfl | ⟨1, _⟩ => rfl | ⟨2, _⟩ => rfl | ⟨3, _⟩ => rfl)

/-- The score divided by 8, or the fill where the mask entry is zero. -/
theorem logit_at (b : Fin 8) (h : Fin 16) (q k : Fin 1024) :
    val_main_v14 (F := Ideal) x0 x1 x2 x3 (ix4 b h q k) = logit x0 x1 x2 x3 b h q k := by
  rw [val_main_v14_apply, val_main_call0_v0_apply, val_main_v13_apply, val_main_v12_apply, val_main_c_apply,
    val_main_call0_v1_apply, val_main_cst_0_apply, val_main_v11_apply, val_main_v10_apply, val_main_cst_apply,
    score_at, idx_mask]
  rfl

/-! ## A row's maximum -/

/-- Putting the key position `k` back into (b, h, q) gives (b, h, q, k). -/
theorem lift_row (hR : S8x16x1024x1024.Reduces [3] S8x16x1024) (b : Fin 8) (h : Fin 16) (q : Fin 1024)
    (k : Fin (S8x16x1024x1024.size 3)) : hR.lift (ix3 b h q) k = ix4 b h q (⟨k.val, k.isLt⟩ : Fin 1024) := by
  funext c; apply Fin.ext
  fin_cases c <;> rfl

/-- The maximum over the key positions, folded from −∞. -/
theorem rowMax_at (b : Fin 8) (h : Fin 16) (q : Fin 1024) :
    val_main_v15 (F := Ideal) x0 x1 x2 x3 (ix3 b h q) = rowMax x0 x1 x2 x3 b h q := by
  have hR : S8x16x1024x1024.Reduces [3] S8x16x1024 := by decide
  unfold val_main_v15
  rw [Host.reduce_eq_fold_single (FloatOps.maximumf (F := Ideal) (φ := .f32)) (val_main_v14 (F := Ideal) x0 x1 x2 x3)
    (val_main_cst_1 (F := Ideal)) reducesTo_S8x16x1024x1024_S8x16x1024_d3 hR h_S_]
  have hf : (val_main_v14 (F := Ideal) x0 x1 x2 x3 ∘ hR.lift (ix3 b h q))
      = fun k : Fin 1024 => logit x0 x1 x2 x3 b h q k :=
    funext fun k => (congrArg (val_main_v14 (F := Ideal) x0 x1 x2 x3) (lift_row hR b h q k)).trans
      (logit_at x0 x1 x2 x3 b h q _)
  exact congrArg (fun f => Finset.fold max negInf f (Finset.univ : Finset (Fin 1024))) hf

/-- The reference takes the maximum of −∞ and the row's maximum: the row's maximum, which is folded from −∞. -/
theorem maxed_at (b : Fin 8) (h : Fin 16) (q : Fin 1024) :
    val_main_v17 (F := Ideal) x0 x1 x2 x3 (ix3 b h q) = rowMax x0 x1 x2 x3 b h q := by
  rw [val_main_v17_apply, val_main_v16_apply, val_main_cst_2_apply, rowMax_at]
  show max negInf ((Finset.univ : Finset (Fin 1024)).fold max negInf fun k => logit x0 x1 x2 x3 b h q k)
    = (Finset.univ : Finset (Fin 1024)).fold max negInf fun k => logit x0 x1 x2 x3 b h q k
  exact Cert.Scalar.max_start_fold _ _ _

/-! ## The exponentials, their sum, and the attention weights -/

/-- A row's value is repeated along the key axis: entry (b, h, q, k) reads the row (b, h, q). -/
theorem idx_rowOfMax (b : Fin 8) (h : Fin 16) (q k : Fin 1024) :
    idx_main_v18 (idx_main_v19 (ix4 b h q k)) = ix3 b h q :=
  funext fun a => Fin.ext (by match a with | ⟨0, _⟩ => rfl | ⟨1, _⟩ => rfl | ⟨2, _⟩ => rfl)

/-- The exponential of a score minus its row's maximum. -/
theorem expo_at (b : Fin 8) (h : Fin 16) (q k : Fin 1024) :
    val_main_v21 (F := Ideal) x0 x1 x2 x3 (ix4 b h q k) = expo x0 x1 x2 x3 b h q k := by
  rw [val_main_v21_apply, val_main_v20_apply, val_main_v19_apply, val_main_v18_apply, idx_rowOfMax, maxed_at, logit_at]
  rfl

/-- Term `k` of a row's sum is the row's entry at key position `k`. -/
theorem idx_keys (b : Fin 8) (h : Fin 16) (q k : Fin 1024) : idx_main_v22 (ix3 b h q) k = ix4 b h q k :=
  funext fun a => Fin.ext (by match a with | ⟨0, _⟩ => rfl | ⟨1, _⟩ => rfl | ⟨2, _⟩ => rfl | ⟨3, _⟩ => rfl)

/-- The sum of a row's exponentials, started from zero. -/
theorem denom_at (b : Fin 8) (h : Fin 16) (q : Fin 1024) :
    val_main_v22 (F := Ideal) x0 x1 x2 x3 (ix3 b h q) = denom x0 x1 x2 x3 b h q := by
  rw [val_main_v22_apply, val_main_cst_3_apply]
  unfold denom
  refine congrArg (_ + ·) (Finset.sum_congr rfl fun k _ => ?_)
  rw [idx_keys, expo_at]

theorem idx_rowOfSum (b : Fin 8) (h : Fin 16) (q k : Fin 1024) :
    idx_main_v23 (idx_main_v24 (ix4 b h q k)) = ix3 b h q :=
  funext fun a => Fin.ext (by match a with | ⟨0, _⟩ => rfl | ⟨1, _⟩ => rfl | ⟨2, _⟩ => rfl)

/-- The attention weight. -/
theorem attn_at (b : Fin 8) (h : Fin 16) (q k : Fin 1024) :
    val_main_v25 (F := Ideal) x0 x1 x2 x3 (ix4 b h q k) = attn x0 x1 x2 x3 b h q k := by
  rw [val_main_v25_apply, val_main_v24_apply, val_main_v23_apply, idx_rowOfSum, denom_at, expo_at]
  rfl

/-! ## The contexts, their concatenation, and the output projection -/

theorem lidx_ctx (b : Fin 8) (h : Fin 16) (s : Fin 1024) (d : Fin 64) (k : Fin 1024) :
    lidx_main_v26 (ix4 b h s d) k = ix4 b h s k :=
  funext fun a => Fin.ext (by match a with | ⟨0, _⟩ => rfl | ⟨1, _⟩ => rfl | ⟨2, _⟩ => rfl | ⟨3, _⟩ => rfl)

theorem ridx_ctx (b : Fin 8) (h : Fin 16) (s : Fin 1024) (d : Fin 64) (k : Fin 1024) :
    ridx_main_v26 (ix4 b h s d) k = ix4 b h k d :=
  funext fun a => Fin.ext (by match a with | ⟨0, _⟩ => rfl | ⟨1, _⟩ => rfl | ⟨2, _⟩ => rfl | ⟨3, _⟩ => rfl)

/-- The context of head `h` at position `s`, feature `d`. -/
theorem ctx_at (b : Fin 8) (h : Fin 16) (s : Fin 1024) (d : Fin 64) :
    val_main_v26 (F := Ideal) x0 x1 x2 x3 x4 (ix4 b h s d) = ctx x0 x1 x2 x3 x4 b h s d := by
  rw [val_main_v26_apply]
  unfold ctx
  refine Finset.sum_congr rfl fun k _ => ?_
  rw [lidx_ctx, ridx_ctx, attn_at,
    show val_main_v8 (F := Ideal) x0 x4 = val_main_v2 (F := Ideal) x0 x4 from rfl, heads_at]

/-- Moving the head axis back and joining the 16 heads of 64 features: entry (b, s, j) of the result is entry
    (b, j / 64, s, j % 64) of the operand. -/
theorem join_idx (b : Fin 8) (s j : Fin 1024) :
    idx_main_v27 (idx_main_v28 (ix3 b s j)) = ix4 b (headOf j) s (featOf j) :=
  funext fun a => Fin.ext (by
    have hb := b.isLt; have hs := s.isLt; have hj := j.isLt
    match a with
    | ⟨0, _⟩ => show ((b.val * 1024 + s.val) * 1024 + j.val) / 1048576 = b.val; omega
    | ⟨1, _⟩ => show ((b.val * 1024 + s.val) * 1024 + j.val) / 64 % 16 = j.val / 64; omega
    | ⟨2, _⟩ => show ((b.val * 1024 + s.val) * 1024 + j.val) / 1024 % 1024 = s.val; omega
    | ⟨3, _⟩ => show ((b.val * 1024 + s.val) * 1024 + j.val) % 64 = j.val % 64; omega)

/-- The concatenated contexts at (b, s, j): feature `j` belongs to head `j / 64`, at `j % 64`. -/
theorem joined_at (b : Fin 8) (s j : Fin 1024) :
    val_main_v28 (F := Ideal) x0 x1 x2 x3 x4 (ix3 b s j) = ctx x0 x1 x2 x3 x4 b (headOf j) s (featOf j) := by
  rw [val_main_v28_apply, val_main_v27_apply, join_idx, ctx_at]

theorem lidx_oproj (b : Fin 8) (s o k : Fin 1024) : lidx_main_v29 (ix3 b s o) k = ix3 b s k :=
  funext fun a => Fin.ext (by match a with | ⟨0, _⟩ => rfl | ⟨1, _⟩ => rfl | ⟨2, _⟩ => rfl)

theorem ridx_oproj (b : Fin 8) (s o k : Fin 1024) : ridx_main_v29 (ix3 b s o) k = ix2 o k :=
  funext fun a => Fin.ext (by match a with | ⟨0, _⟩ => rfl | ⟨1, _⟩ => rfl)

/-- The output projection of the concatenated contexts. -/
theorem oproj_at (b : Fin 8) (s o : Fin 1024) :
    val_main_v29 (F := Ideal) x0 x1 x2 x3 x4 x5 (ix3 b s o) = oproj x0 x1 x2 x3 x4 x5 b s o := by
  rw [val_main_v29_apply]
  unfold oproj
  refine Finset.sum_congr rfl fun j _ => ?_
  rw [lidx_oproj, ridx_oproj, joined_at]

/-- With the input added back. -/
theorem resid_at (b : Fin 8) (s o : Fin 1024) :
    val_main_v30 (F := Ideal) x0 x1 x2 x3 x4 x5 (ix3 b s o) = resid x0 x1 x2 x3 x4 x5 b s o := by
  rw [val_main_v30_apply, oproj_at]
  rfl

/-! ## The layer normalisation -/

/-- A row's statistic is kept with a last axis of size one: (b, s, 0) reads the row (b, s). -/
theorem idx_rowOfSum1 (b : Fin 8) (s : Fin 1024) : idx_main_v32 (ix3 b s (0 : Fin 1)) = ix2 b s :=
  funext fun a => Fin.ext (by match a with | ⟨0, _⟩ => rfl | ⟨1, _⟩ => rfl)

/-- Term `k` of a row's sum is the row's entry at feature `k`. -/
theorem idx_feats (b : Fin 8) (s k : Fin 1024) : idx_main_v31 (ix2 b s) k = ix3 b s k :=
  funext fun a => Fin.ext (by match a with | ⟨0, _⟩ => rfl | ⟨1, _⟩ => rfl | ⟨2, _⟩ => rfl)

/-- The mean of a row. -/
theorem mean_at (b : Fin 8) (s : Fin 1024) :
    val_main_v34 (F := Ideal) x0 x1 x2 x3 x4 x5 (ix3 b s (0 : Fin 1)) = mean x0 x1 x2 x3 x4 x5 b s := by
  rw [val_main_v34_apply, val_main_v32_apply, idx_rowOfSum1, val_main_v31_apply, val_main_cst_4_apply,
    val_main_v33_apply, val_main_cst_5_apply]
  unfold mean
  refine congrArg (fun t => Ideal.div (zero + t) n1024) (Finset.sum_congr rfl fun k _ => ?_)
  rw [idx_feats, resid_at]

/-- A row's statistic is repeated along the feature axis: entry (b, s, o) reads it at (b, s, 0). -/
theorem idx_rowOfMean (b : Fin 8) (s o : Fin 1024) : idx_main_v35 (ix3 b s o) = ix3 b s (0 : Fin 1) :=
  funext fun a => Fin.ext (by match a with | ⟨0, _⟩ => rfl | ⟨1, _⟩ => rfl | ⟨2, _⟩ => rfl)

/-- A centred entry. -/
theorem cent_at (b : Fin 8) (s o : Fin 1024) :
    val_main_v36 (F := Ideal) x0 x1 x2 x3 x4 x5 (ix3 b s o) = cent x0 x1 x2 x3 x4 x5 b s o := by
  rw [val_main_v36_apply, val_main_v35_apply, idx_rowOfMean, mean_at, resid_at]
  rfl

theorem idx_rowOfSum2 (b : Fin 8) (s : Fin 1024) : idx_main_v39 (ix3 b s (0 : Fin 1)) = ix2 b s :=
  funext fun a => Fin.ext (by match a with | ⟨0, _⟩ => rfl | ⟨1, _⟩ => rfl)

theorem idx_featsSq (b : Fin 8) (s k : Fin 1024) : idx_main_v38 (ix2 b s) k = ix3 b s k :=
  funext fun a => Fin.ext (by match a with | ⟨0, _⟩ => rfl | ⟨1, _⟩ => rfl | ⟨2, _⟩ => rfl)

/-- The mean square of a centred row. -/
theorem var_at (b : Fin 8) (s : Fin 1024) :
    val_main_v41 (F := Ideal) x0 x1 x2 x3 x4 x5 (ix3 b s (0 : Fin 1)) = var x0 x1 x2 x3 x4 x5 b s := by
  rw [val_main_v41_apply, val_main_v39_apply, idx_rowOfSum2, val_main_v38_apply, val_main_cst_6_apply,
    val_main_v40_apply, val_main_cst_7_apply]
  unfold var
  refine congrArg (fun t => Ideal.div (zero + t) n1024) (Finset.sum_congr rfl fun k _ => ?_)
  rw [idx_featsSq, val_main_v37_apply, cent_at]
  rfl

theorem idx_rowOfRoot (b : Fin 8) (s o : Fin 1024) : idx_main_v47 (ix3 b s o) = ix3 b s (0 : Fin 1) :=
  funext fun a => Fin.ext (by match a with | ⟨0, _⟩ => rfl | ⟨1, _⟩ => rfl | ⟨2, _⟩ => rfl)

/-- The scale is one vector over the features: entry (b, s, o) reads it at `o`. -/
theorem idx_scale (b : Fin 8) (s o : Fin 1024) : idx_main_v49 (idx_main_v50 (ix3 b s o)) = ix1 o :=
  funext fun a => Fin.ext (by match a with | ⟨0, _⟩ => rfl)

/-- The shift is one vector over the features: entry (b, s, o) reads it at `o`. -/
theorem idx_shift (b : Fin 8) (s o : Fin 1024) : idx_main_v52 (idx_main_v53 (ix3 b s o)) = ix1 o :=
  funext fun a => Fin.ext (by match a with | ⟨0, _⟩ => rfl)

/-- The normalised, scaled and shifted entry. -/
theorem normed_at (b : Fin 8) (s o : Fin 1024) :
    val_main_v54 (F := Ideal) x0 x1 x2 x3 x4 x5 x6 x7 (ix3 b s o) = normed x0 x1 x2 x3 x4 x5 x6 x7 b s o := by
  rw [val_main_v54_apply, val_main_v51_apply, val_main_v48_apply,
    show val_main_v43 (F := Ideal) x0 x1 x2 x3 x4 x5 = val_main_v36 (F := Ideal) x0 x1 x2 x3 x4 x5 from rfl, cent_at,
    val_main_v47_apply, idx_rowOfRoot, val_main_v46_apply, val_main_v45_apply, var_at, val_main_v44_apply,
    val_main_cst_8_apply, val_main_v50_apply, val_main_v49_apply, idx_scale, val_main_v53_apply, val_main_v52_apply,
    idx_shift]
  rfl

/-! ## The two results -/

/-- The reference's attention weights are the specification's. -/
theorem attn_eq (x0 : (⟨Cert.ReferenceIdeal.S8x1024x1024, .f32⟩ : BufTy).Contents (Elt Ideal))
    (x1 : (⟨Cert.ReferenceIdeal.S8x1x1024x1024, .i32⟩ : BufTy).Contents (Elt Ideal))
    (x2 x3 : (⟨Cert.ReferenceIdeal.S1024x1024, .f32⟩ : BufTy).Contents (Elt Ideal)) :
    Cert.ReferenceIdeal.Read.val_main_v25 (F := Ideal) x0 x1 x2 x3 = Cert.Attn.Spec.attnArr x0 x1 x2 x3 := by
  funext i
  obtain ⟨b, h, q, k, rfl⟩ : ∃ (b : Fin 8) (h : Fin 16) (q k : Fin 1024), i = ix4 b h q k :=
    ⟨i 0, i 1, i 2, i 3, eq_ix4 i⟩
  exact attn_at x0 x1 x2 x3 b h q k

/-- The reference's layer output is the specification's. -/
theorem out_eq (x0 : (⟨Cert.ReferenceIdeal.S8x1024x1024, .f32⟩ : BufTy).Contents (Elt Ideal))
    (x1 : (⟨Cert.ReferenceIdeal.S8x1x1024x1024, .i32⟩ : BufTy).Contents (Elt Ideal))
    (x2 x3 x4 x5 : (⟨Cert.ReferenceIdeal.S1024x1024, .f32⟩ : BufTy).Contents (Elt Ideal))
    (x6 x7 : (⟨Cert.ReferenceIdeal.S1024, .f32⟩ : BufTy).Contents (Elt Ideal)) :
    Cert.ReferenceIdeal.Read.val_main_v54 (F := Ideal) x0 x1 x2 x3 x4 x5 x6 x7
      = Cert.Attn.Spec.outArr x0 x1 x2 x3 x4 x5 x6 x7 := by
  funext i
  obtain ⟨b, s, o, rfl⟩ : ∃ (b : Fin 8) (s o : Fin 1024), i = ix3 b s o := ⟨i 0, i 1, i 2, eq_ix3 i⟩
  exact normed_at x0 x1 x2 x3 x4 x5 x6 x7 b s o

end Cert.Attn.Ref

end
-- ==== Proof.lean ====
/-
  Multi-head self-attention with a residual connection and a layer normalisation: the tiled kernel and the plain
  reference compute the same two arrays over the extended reals.

  The kernel walks a grid of 8 batches, 4 query tiles of 256 positions and 16 heads. At each point it projects the
  tile and the whole sequence with the head's 64 columns of the query, key and value weights, scales the tile's
  scores by one eighth, masks them, takes the row-wise softmax — written out as that head's block of attention
  weights — and adds the head's output projection of the weighted values to a sum it carries over the heads; after
  the last head it adds the tile back and normalises each row. The reference projects with the whole weight matrices,
  splits the features into heads, divides the scores by eight, and concatenates the heads before the output
  projection. Entry by entry the two agree: one eighth times a number is that number divided by eight; the maximum of
  a row folded from −∞ is unchanged by one more maximum with −∞; the sum over 1024 features is the sum over the
  heads of the sums over each head's 64 features; and multiplying by the reciprocal square root of a positive number
  is dividing by its square root — positive because a mean of squares plus a positive constant is positive, whatever
  the inputs. No step uses that the inputs are finite.

  Both sides are stated against one specification (Proof/Spec.lean): the reference's run is that specification
  (Proof/RefSpec.lean), and the kernel's result arrays are it too (Proof/Final.lean, over the values of the body's
  stores in Proof/Payload.lean, the blocks in Proof/Blocks.lean, one grid point in Proof/Point.lean and the carried
  sum in Proof/Accum.lean). The three frame claims are the generated runs; the idealization rewrote nothing.
-/
import proofs.«161823_j12627203850645_2_alg».proof.Defs
import proofs.«161823_j12627203850645_2_alg».proof.Proof.Gen.Kernel
import proofs.«161823_j12627203850645_2_alg».proof.Proof.Gen.Kernel.Frame
import proofs.«161823_j12627203850645_2_alg».proof.Proof.Gen.KernelIdeal
import proofs.«161823_j12627203850645_2_alg».proof.Proof.Gen.KernelIdeal.Frame
import proofs.«161823_j12627203850645_2_alg».proof.Proof.Gen.KernelIdeal.Value
import proofs.«161823_j12627203850645_2_alg».proof.Proof.Gen.ReferenceIdeal
import proofs.«161823_j12627203850645_2_alg».proof.Proof.Gen.ReferenceIdeal.Run
import proofs.«161823_j12627203850645_2_alg».proof.Proof.Gen.ReferenceIdeal.Read
import proofs.«161823_j12627203850645_2_alg».proof.Proof.Gen.Pre_finite_inputs
import proofs.«161823_j12627203850645_2_alg».proof.Proof.Final
import proofs.«161823_j12627203850645_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.Value.run (F := Idealize.ShloMosaic.Ideal) m ρ)

/-- The idealization rewrote no operation. -/
theorem preserves : Cert.preserves_Kernel_KernelIdeal := trivial

/-- From memories that agree on the arguments, the kernel's two result arrays and the reference's are the
    specification's layer output and attention weights of those arguments. -/
theorem algebraic : Cert.algebraic_KernelIdeal_ReferenceIdeal := by
  intro m ρ m' ρ' _ hagree
  refine ⟨fun c => Cert.Attn.Spec.outArr (Cert.Attn.Point.a0 m c) (Cert.Attn.Point.a1 m c) (Cert.Attn.Point.a2 m c)
      (Cert.Attn.Point.a3 m c) (Cert.Attn.Point.a4 m c) (Cert.Attn.Point.a5 m c) (Cert.Attn.Point.a6 m c) (Cert.Attn.Point.a7 m c),
    fun c => Cert.Attn.Spec.attnArr (Cert.Attn.Point.a0 m c) (Cert.Attn.Point.a1 m c) (Cert.Attn.Point.a2 m c)
      (Cert.Attn.Point.a3 m c), Cert.Attn.Final.run m ρ, ?_⟩
  refine (θ_run Cert.ReferenceIdeal.defs _ _).mono (fun _ h c => ⟨(h c).1.trans ?_, (h c).2.1.trans ?_, (h c).2.2⟩)
    (Cert.ReferenceIdeal.Value.run (F := Idealize.ShloMosaic.Ideal) m' ρ')
  · obtain ⟨e0, e1, e2, e3, e4, e5, e6, e7⟩ := hagree c
    rw [Cert.ReferenceIdeal.Read.val_main_v54_eq, Cert.Attn.Ref.out_eq, e0, e1, e2, e3, e4, e5, e6, e7]
  · obtain ⟨e0, e1, e2, e3, _⟩ := hagree c
    rw [Cert.ReferenceIdeal.Read.val_main_v25_eq, Cert.Attn.Ref.attn_eq, e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
